-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S8x1024x1024 : Shape := ⟨3, ![8, 1024, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1x1024 : Shape := ⟨2, ![1, 1024]⟩
abbrev S1024x1 : Shape := ⟨2, ![1024, 1]⟩

abbrev nBuf : Space → Nat
  | .hbm => 15
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S8x1024x1024, .bf16⟩
  | .hbm, ⟨14, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1024x1024, .bf16⟩
  | .local _ .vmem, ⟨14, _⟩ => ⟨S1024, .f32⟩
  | .local _ .vmem, ⟨15, _⟩ => ⟨S1x1024x1024, .f32⟩
  | .local _ .vmem, ⟨16, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_15 : BitVec 32 := 0#32
  let v28 : BitVec 1 := Scalar.cmpi .ne v27 c0_i32_15
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  reduces_S1024x1024_S1024 : S1024x1024.Reduces [1] S1024
  shapeCasts_S1024_S1024x1 : S1024.ShapeCasts S1024x1
  broadcasts_S1024x1_S1024x1024 : S1024x1.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  broadcasts_S1x1024_S1024x1024 : S1x1024.Broadcasts S1024x1024
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x1024x1024.size a
  hwx0_5 : ∀ i : grid0.Coords, EltTy.bits .bf16 = 32 ∨ (Rect.block (s := S8x1024x1024) S1x1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x4096x1024.size a
  hwx1_0 : ∀ i : grid1.Coords, EltTy.bits .f32 = 32 ∨ (Rect.block (s := S8x4096x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x1024x1024.size a
  hwx1_1 : ∀ i : grid1.Coords, EltTy.bits .bf16 = 32 ∨ (Rect.block (s := S8x1024x1024) S1x1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S1024.size a
  hwx1_3 : ∀ i : grid1.Coords, EltTy.bits .f32 = 32 ∨ (Rect.block (s := S1024) S1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S8x4096x1024.size a
  hwx1_4 : ∀ i : grid1.Coords, EltTy.bits .f32 = 32 ∨ (Rect.block (s := S8x4096x1024) S1x1024x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S1x1x1024 : Shape := ⟨3, ![1, 1, 1024]⟩
abbrev S8x1024x1024 : Shape := ⟨3, ![8, 1024, 1024]⟩
abbrev S_ : Shape := ⟨0, ![]⟩
abbrev S8x1024 : Shape := ⟨2, ![8, 1024]⟩
abbrev S8x1024x1 : Shape := ⟨3, ![8, 1024, 1]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x4096x1024, .f32⟩
  | .hbm, ⟨8, _⟩ => ⟨S1x1x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S1x1x1024, .f32⟩
  | .hbm, ⟨13, _⟩ => ⟨S8x4096x1024, .f32⟩
  | .hbm, ⟨14, _⟩ => ⟨S8x4096x1024, .f32⟩
  | .hbm, ⟨15, _⟩ => ⟨S8x1024x1024, .f32⟩
  | .hbm, ⟨16, _⟩ => ⟨S_, .f32⟩
  | .hbm, ⟨17, _⟩ => ⟨S8x1024, .f32⟩
  | .hbm, ⟨18, _⟩ => ⟨S_, .f32⟩
  | .hbm, ⟨19, _⟩ => ⟨S8x1024, .f32⟩
  | .hbm, ⟨20, _⟩ => ⟨S8x1024, .f32⟩
  | .hbm, ⟨21, _⟩ => ⟨S8x1024x1, .f32⟩
  | .hbm, ⟨22, _⟩ => ⟨S8x1024x1024, .f32⟩
  | .hbm, ⟨23, _⟩ => ⟨S8x1024x1024, .f32⟩
  | .hbm, ⟨24, _⟩ => ⟨S8x1024x1024, .f32⟩
  | .hbm, ⟨25, _⟩ => ⟨S_, .f32⟩
  | .hbm, ⟨26, _⟩ => ⟨S8x1024, .f32⟩
  | .hbm, ⟨27, _⟩ => ⟨S8x1024x1, .f32⟩
  | .hbm, ⟨28, _⟩ => ⟨S8x1024x1024, .f32⟩
  | .hbm, ⟨29, _⟩ => ⟨S8x1024x1024, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  dot_S8x4096x1024_S1024x1024_S8x4096x1024_2_1_01_0_n_n_wf : DotDims.WF S8x4096x1024 S1024x1024 S8x4096x1024 [2] [1] [0, 1] [0] [] []
  dot_S8x4096x1024_S8x4096x1024_S8x1024x1024_1_1_2_2_0_0_wf : DotDims.WF S8x4096x1024 S8x4096x1024 S8x1024x1024 [1] [1] [2] [2] [0] [0]
  dot_S8x4096x1024_S8x1024x1024_S8x4096x1024_2_1_1_2_0_0_wf : DotDims.WF S8x4096x1024 S8x1024x1024 S8x4096x1024 [2] [1] [1] [2] [0] [0]

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x1024_S8x4096x1024_S8x1024x1024_1_1_2_2_0_0 : DotDims S8x4096x1024 S8x4096x1024 S8x1024x1024 where
  lhsContracting := [1]
  rhsContracting := [1]
  lhsNonContracting := [2]
  rhsNonContracting := [2]
  lhsBatch := [0]
  rhsBatch := [0]
  wf := dot_S8x4096x1024_S8x4096x1024_S8x1024x1024_1_1_2_2_0_0_wf
def dot_S8x4096x1024_S8x1024x1024_S8x4096x1024_2_1_1_2_0_0 : DotDims S8x4096x1024 S8x1024x1024 S8x4096x1024 where
  lhsContracting := [2]
  rhsContracting := [1]
  lhsNonContracting := [1]
  rhsNonContracting := [2]
  lhsBatch := [0]
  rhsBatch := [0]
  wf := dot_S8x4096x1024_S8x1024x1024_S8x4096x1024_2_1_1_2_0_0_wf

class Facts : Prop extends Facts₀ where

variable [Facts]
-- ==== Proof.BitsRegion0Runs.lean ====
/-
  What the three control cases of the first kernel region share. The region's grid is 8 × 8: point (b, s) reads
  rows 512·s … 512·s + 511 of batch b of the input and the two transposed projection matrices with their biases, and
  adds that tile's logits into a 1024 × 1024 accumulator the kernel keeps in a scratch buffer between points. The
  body zeroes the accumulator first when s = 0, and when s = 7 it stores the row softmax of the accumulator into the
  output block; at every other point the output window is idle. So a point is in one of three cases: s = 0 (zero,
  then accumulate), 0 < s < 7 (accumulate), s = 7 (accumulate, then store the softmax). Stated at any float instance.
-/
import proofs.«123227_j30734785970848_2_alg».proof.Proof.Gen.Kernel.Launch
import proofs.«123227_j30734785970848_2_alg».proof.Proof.Gen.Kernel.Skeleton
import proofs.«123227_j30734785970848_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The body's first condition, from the grid coordinates: the sequence-tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The body's second condition: the sequence-tile coordinate is 7, the last. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the sequence tile is not the last the output window is idle and is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- At the last sequence tile the output window is live. -/
theorem liveAt0_5_C : ∀ t : Fin cfg0.N, ¬cond0_0 (grid0.coords t) → cond0_1 (grid0.coords t) → cfg0.idle 5 (grid0.coords t) = false := by decide +kernel

/-! ## The staging and scratch memrefs -/

/-- One staging buffer of the output window, through which its contents are stated. -/
abbrev VO0_5 : View sig .tc .vmem S1x1024x1024 .bf16 := (Memref.whole cc0_stg5_0 : Memref sig .tc .vmem S1x1024x1024 .bf16).view
/-- Each window's current staging memref at point `t`, and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1024 .bf16 := win0_5.stage (cfg0.slots t 5)
abbrev hs0_5 (t : Fin cfg0.N) : (ms0_5 t).IsWhole := hstage0_5 ((cfg0.slots t 5).cast nbuf0_5)
/-- The accumulator: a whole scoped buffer of the kernel's own, passed beside the windows. -/
abbrev scM0_0 : Memref sig .tc .vmem S1024x1024 .f32 := Memref.whole cc0_scratch0
abbrev VS0_0 : View sig .tc .vmem S1024x1024 .f32 := scM0_0.view

/-- The core's scoped buffers that this region neither stages through nor uses as scratch — the second region's eight
    staging buffers —, each whole at some contents: they ride through the region untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's untouched invariant — every scoped buffer it does not stage through at some contents, and the
    generator register — with the accumulator singled out as a memref owned at some contents. -/
theorem PhiA0_eq (c : Dev nD) :
    (Pipeline.ΦA spec0 c : sProp 𝕄)
      = iprop(iprop((∃ d, owns (c : Thread nD τ) scM0_0 fullShare d) ∗ restS c) ∗ (∃ r, prngReg c r)) := by
  unfold Pipeline.ΦA restS; rw [scopedRest0_eq]; simp only [scM0_0, owns_whole]; try rfl

end Cert.Kernel.Fr

end
-- ==== Proof.BitsRegion0RunA.lean ====
/-
  The whole body of the first kernel region run in the case where the sequence tile is the first (the accumulator is zeroed, then the tile's logits added; the output window idle): on whole staging memrefs, the five inputs at
  their contents, it runs to the continuation holding the inputs as they were and each buffer it stored into with its
  stores written, as a list of pieces that the run itself determines. Stated at any float instance.
-/
import proofs.«123227_j30734785970848_2_alg».proof.Proof.BitsRegion0Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output's staging memref (`L5`) and in the accumulator (`LS0`), last
    first, in this case, with the proof that the body runs to the continuation holding them written. -/
noncomputable def kernelRun0_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024 .f32) (x3 : Vec F S1024x1024 .bf16) (x4 : Vec F S1024 .f32) :
    Σ' (L5 : List (View.Piece (Elt F) S1x1024x1024 .bf16)), { LS0 : List (View.Piece (Elt F) S1024x1024 .f32) //
      ∀ (xi5 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__qk_softmax_kernel i arg2 harg2 arg3 harg3 arg4 harg4 arg5 harg5 arg6 harg6 arg7 harg7 arg8 harg8) K } := by
  refine ⟨[], ?_, fun xi5 E K => ?run⟩
  case run =>
    simp only [cc0__qk_softmax_kernel_eq_skeleton]; unfold cc0__qk_softmax_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.BitsRegion0RunB.lean ====
/-
  The whole body of the first kernel region run in the case where the sequence tile is neither the first nor the last (the tile's logits added onto the accumulator as the point before left it; the output window idle): on whole staging memrefs, the five inputs at
  their contents, it runs to the continuation holding the inputs as they were and each buffer it stored into with its
  stores written, as a list of pieces that the run itself determines. Stated at any float instance.
-/
import proofs.«123227_j30734785970848_2_alg».proof.Proof.BitsRegion0RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output's staging memref (`L5`) and in the accumulator (`LS0`), last
    first, in this case, with the proof that the body runs to the continuation holding them written. -/
noncomputable def kernelRun0_B (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) :
    Σ' (L5 : List (View.Piece (Elt F) S1x1024x1024 .bf16)), { LS0 : List (View.Piece (Elt F) S1024x1024 .f32) //
      ∀ (xi5 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__qk_softmax_kernel i arg2 harg2 arg3 harg3 arg4 harg4 arg5 harg5 arg6 harg6 arg7 harg7 arg8 harg8) K } := by
  refine ⟨[], ?_, fun xi5 E K => ?run⟩
  case run =>
    simp only [cc0__qk_softmax_kernel_eq_skeleton]; unfold cc0__qk_softmax_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.BitsRegion0RunC.lean ====
/-
  The whole body of the first kernel region run in the case where the sequence tile is the last (the tile's logits added onto the accumulator as the point before left it, then the row softmax of the accumulator stored over the whole output block): on whole staging memrefs, the five inputs at
  their contents, it runs to the continuation holding the inputs as they were and each buffer it stored into with its
  stores written, as a list of pieces that the run itself determines. Stated at any float instance.
-/
import proofs.«123227_j30734785970848_2_alg».proof.Proof.BitsRegion0RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output's staging memref (`L5`) and in the accumulator (`LS0`), last
    first, in this case, with the proof that the body runs to the continuation holding them written. -/
noncomputable def kernelRun0_C (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) :
    Σ' (L5 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__qk_softmax_kernel i arg2 harg2 arg3 harg3 arg4 harg4 arg5 harg5 arg6 harg6 arg7 harg7 arg8 harg8) K } := by
  refine ⟨?_, ?_, fun E K => ?run⟩
  case run =>
    simp only [cc0__qk_softmax_kernel_eq_skeleton]; unfold cc0__qk_softmax_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Fr

end
-- ==== Proof.BitsRegion0.lean ====
/-
  The first kernel region taken by itself, at any contents `V` of the core's buffers when the region is entered: what
  each control case leaves in the output's staging buffer and in the accumulator, what they hold after every grid
  point (a recursion over the points: the accumulator after a point is the case's result over what the point before
  left), the region's invariant (the accumulator at exactly that, the other scoped buffers and the generator register
  riding along), the proof data, and the body's obligation at every point. Stated at any float instance.
-/
import proofs.«123227_j30734785970848_2_alg».proof.Proof.BitsRegion0RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- What this case leaves in the output's staging buffer: its stores read back (none: a placeholder nothing consults, the window being idle and not written back at these points). -/
def out0_A_5 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024 .f32) (x3 : Vec F S1024x1024 .bf16) (x4 : Vec F S1024 .f32) : Vec F S1x1024x1024 .bf16 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- This case's stores into the accumulator cover it. -/
theorem scover0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024 .f32) (x3 : Vec F S1024x1024 .bf16) (x4 : Vec F S1024 .f32) (y : S1024x1024.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S1024x1024.size (by sl_kernel_rfl) y

/-- What this case leaves in the accumulator: its stores read back. -/
def sout0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024 .f32) (x3 : Vec F S1024x1024 .bf16) (x4 : Vec F S1024 .f32) : Vec F S1024x1024 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- What this case leaves in the output's staging buffer: its stores read back (none: a placeholder nothing consults, the window being idle and not written back at these points). -/
def out0_B_5 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) : Vec F S1x1024x1024 .bf16 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- This case's stores into the accumulator cover it. -/
theorem scover0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) (y : S1024x1024.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S1024x1024.size (by sl_kernel_rfl) y

/-- What this case leaves in the accumulator: its stores read back. -/
def sout0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) : Vec F S1024x1024 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- In the last-tile case the one store into the output's staging buffer covers it. -/
theorem cover0_C_5 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) (y : S1x1024x1024.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S1x1024x1024.size (by sl_kernel_rfl) y

/-- What this case leaves in the output's staging buffer: its stores read back. -/
def out0_C_5 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) : Vec F S1x1024x1024 .bf16 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- This case's stores into the accumulator cover it. -/
theorem scover0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) (y : S1024x1024.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S1024x1024.size (by sl_kernel_rfl) y

/-- What this case leaves in the accumulator: its stores read back. -/
def sout0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) : Vec F S1024x1024 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the output's buffer and the accumulator hold after each point -/

/-- The accumulation: the output's staging buffer and the accumulator after the body at position `n` — the case the
    position is in, run at the point's memrefs and input blocks, over the accumulator as position `n - 1` left it. -/
def outsAt0 (c : Dev nD) : (n : ℕ) → n < cfg0.N → Vec F S1x1024x1024 .bf16 × Vec F S1024x1024 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      if h1 : (n + 1) % 8 = 7 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 8 = 7 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point every scoped buffer the region does not stage through at anything; afterwards
    the accumulator at exactly what the point before left in it, the other such buffers at anything, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS c) ∗ (∃ r, prngReg c r)) := by
  cases n with
  | zero => exact absurd rfl hz
  | succ n => rfl

/-! ## The pipeline's proof data -/

/-- The proof data of the first pipeline on core `c`: the arrays as the region finds them; after the body at point `t`
    each input's buffer at its block and the output's at the accumulation's first component; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Cert.Kernel.Fr

end
-- ==== Proof.BitsRegion0Body.lean ====
/-
  The body obligation of the first kernel region at every grid point. A point is in one of the three control cases,
  by its position modulo 8; the invariant hands the body the accumulator at what the point before left (at anything
  at the very first point), the case's run applies, and the invariant takes the accumulator back at this point's
  contents; at the points where the output window is idle its buffer is handed back untouched. Then the two ends of
  the invariant: it starts as the region's untouched invariant, and after the last point gives it back, forgetting
  what the accumulator holds. Stated at any float instance.
-/
import proofs.«123227_j30734785970848_2_alg».proof.Proof.BitsRegion0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 8 = 0
  · by_cases h1 : t.val % 8 = 7
    · exfalso; omega
    · rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The region's untouched invariant is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the untouched one back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.Kernel.Fr

end
-- ==== Proof.BitsRegion1.lean ====
/-
  The second kernel region, taken by itself at any contents `V` of the core's buffers when the region is entered.
  Its grid is 8 × 4: point (b, s) reads rows 1024·s … 1024·s + 1023 of batch b of the input, batch b's weight
  matrix, the transposed value projection and its bias, and writes the same rows of the result. The body loads its
  four inputs whole, computes one term of them (the generated payload), and stores it over the whole output block, so
  what a point leaves in the output's staging buffer is that term of the four input blocks and nothing else.
  Stated at any float instance.
-/
import proofs.«123227_j30734785970848_2_alg».proof.Proof.Gen.Kernel.Launch
import proofs.«123227_j30734785970848_2_alg».proof.Proof.Gen.Kernel.Skeleton
import proofs.«123227_j30734785970848_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched it there or
    kept it from an earlier point (its block index has not moved since), for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

abbrev r1_3 : Rect S1x1024x1024 := Rect.unit (s := S1x1024x1024) ![0, 0, 0] S1x1024x1024.size inb_S1x1024x1024_S1x1024x1024_0_0_0
abbrev r1_2 : Rect S1024x1024 := Rect.unit (s := S1024x1024) ![0, 0] S1024x1024.size inb_S1024x1024_S1024x1024_0_0
abbrev r1_1 : Rect S1024 := Rect.unit (s := S1024) ![0] S1024.size inb_S1024_S1024_0

/-- The output's staging buffer after the body: its one store, over the whole block, of the body's term of the four
    input blocks. -/
def out1_4 (x0 : Vec F S1x1024x1024 .f32) (x1 : Vec F S1x1024x1024 .bf16) (x2 : Vec F S1024x1024 .bf16) (x3 : Vec F S1024 .f32) : Vec F S1x1024x1024 .f32 :=
  View.canon [⟨r1_3, k1_pay1 (View.ld x0 r1_3) (View.ld x1 r1_3) (View.ld x2 r1_2) (View.ld x3 r1_1)⟩]

/-- The one store covers the block. -/
theorem cover1_4 (p0 : Vec F S1x1024x1024 .f32) (y : S1x1024x1024.Idx) :
    ∃ pc ∈ ([⟨r1_3, p0⟩] : List (View.Piece (Elt F) S1x1024x1024 .f32)), y ∈ pc.1.set :=
  View.cover_of_tiled [⟨r1_3, p0⟩] S1x1024x1024.size (by rfl) y

/-! ## The body's triple -/

set_option maxHeartbeats 1000000 in
/-- The body on whole staging memrefs, the inputs' at contents `xW` and the output's at anything, runs to the
    continuation holding the inputs' as they were and the output's at `out1_4` of them. -/
theorem sound_kernel1 (c : Dev nD) (E : Set ℕ) (i : grid1.Coords) (arg2 : Memref sig .tc .vmem S1x1024x1024 .f32) (harg2 : arg2.IsWhole) (arg3 : Memref sig .tc .vmem S1x1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .f32) (harg6 : arg6.IsWhole)
    (x0 : Vec F S1x1024x1024 .f32) (x1 : Vec F S1x1024x1024 .bf16) (x2 : Vec F S1024x1024 .bf16) (x3 : Vec F S1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__attn_out_kernel i arg2 harg2 arg3 harg3 arg4 harg4 arg5 harg5 arg6 harg6) K := by
  simp only [cc1__attn_out_kernel_eq_skeleton]; unfold cc1__attn_out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the second pipeline on core `c`: the arrays as the region finds them; after the body at point
    `t` each input's buffer at its block and the output's at `out1_4` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.BitsFrame.lean ====
/-
  The whole program's run. Its @main is one stretch of host operations (the three weight matrices transposed and
  converted), then the first kernel region, then the second. The core's buffer contents at each boundary are a fold
  from the launch memory: after the host stretch; after the first region (its arrays at what its write-backs leave,
  every other buffer as entered); after the second region likewise. Each region is entered from every unscoped buffer
  held at the boundary's contents and left at the next boundary's; no argument array is written by a host operation or
  as a region's output, so each reads back to its launch contents; and the result buffer ends at what the second
  region's write-backs leave. Stated at any float instance.
-/
import proofs.«123227_j30734785970848_2_alg».proof.Proof.BitsRegion0Body
import proofs.«123227_j30734785970848_2_alg».proof.Proof.BitsRegion1
import proofs.«123227_j30734785970848_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- A buffer no host operation of the stretch writes holds its launch contents after it. -/
theorem W1_of (c : Dev nD) (r : Ref sig .tc) (h : r ∉ hostOps0_W) : W1 m ρ c (Proc.devRef .tc r) = m ((c : Thread nD τ).loc r) :=
  Gen.V1_of m c r h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_of m ρ c main_arg0 (by decide)

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_of m ρ c main_arg1 (by decide)

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = m ((c : Thread nD τ).loc main_arg2) := W1_of m ρ c main_arg2 (by decide)

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of m ρ c main_arg3 (by decide)

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = m ((c : Thread nD τ).loc main_arg4) := W1_of m ρ c main_arg4 (by decide)

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = m ((c : Thread nD τ).loc main_arg5) := W1_of m ρ c main_arg5 (by decide)

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 3).trans (((dat1 (V2 m ρ) c).arrAt_in 3 rfl _).trans (A_eq1 (V2 m ρ) c 3))
    _ = W1 m ρ c (Proc.devRef .tc main_arg6) := W2_of_ne m ρ c main_arg6 (by decide)
    _ = m ((c : Thread nD τ).loc main_arg6) := W1_of m ρ c main_arg6 (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    with the result buffer at what the second region's write-backs leave and every argument array as launched. -/
theorem run_main : θ_run defs (onTc (τ := τ) (main (F := F))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.Kernel.Fr

end
-- ==== Proof.Region0Runs.lean ====
/-
  What the three control cases of the first kernel region share. The region's grid is 8 × 8: point (b, s) reads
  rows 512·s … 512·s + 511 of batch b of the input and the two transposed projection matrices with their biases, and
  adds that tile's logits into a 1024 × 1024 accumulator the kernel keeps in a scratch buffer between points. The
  body zeroes the accumulator first when s = 0, and when s = 7 it stores the row softmax of the accumulator into the
  output block; at every other point the output window is idle. So a point is in one of three cases: s = 0 (zero,
  then accumulate), 0 < s < 7 (accumulate), s = 7 (accumulate, then store the softmax). Stated at any float instance.
-/
import proofs.«123227_j30734785970848_2_alg».proof.Proof.Gen.KernelIdeal.Launch
import proofs.«123227_j30734785970848_2_alg».proof.Proof.Gen.KernelIdeal.Skeleton
import proofs.«123227_j30734785970848_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The body's first condition, from the grid coordinates: the sequence-tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The body's second condition: the sequence-tile coordinate is 7, the last. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the sequence tile is not the last the output window is idle and is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- At the last sequence tile the output window is live. -/
theorem liveAt0_5_C : ∀ t : Fin cfg0.N, ¬cond0_0 (grid0.coords t) → cond0_1 (grid0.coords t) → cfg0.idle 5 (grid0.coords t) = false := by decide +kernel

/-! ## The staging and scratch memrefs -/

/-- One staging buffer of the output window, through which its contents are stated. -/
abbrev VO0_5 : View sig .tc .vmem S1x1024x1024 .bf16 := (Memref.whole cc0_stg5_0 : Memref sig .tc .vmem S1x1024x1024 .bf16).view
/-- Each window's current staging memref at point `t`, and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1024 .bf16 := win0_5.stage (cfg0.slots t 5)
abbrev hs0_5 (t : Fin cfg0.N) : (ms0_5 t).IsWhole := hstage0_5 ((cfg0.slots t 5).cast nbuf0_5)
/-- The accumulator: a whole scoped buffer of the kernel's own, passed beside the windows. -/
abbrev scM0_0 : Memref sig .tc .vmem S1024x1024 .f32 := Memref.whole cc0_scratch0
abbrev VS0_0 : View sig .tc .vmem S1024x1024 .f32 := scM0_0.view

/-- The core's scoped buffers that this region neither stages through nor uses as scratch — the second region's eight
    staging buffers —, each whole at some contents: they ride through the region untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's untouched invariant — every scoped buffer it does not stage through at some contents, and the
    generator register — with the accumulator singled out as a memref owned at some contents. -/
theorem PhiA0_eq (c : Dev nD) :
    (Pipeline.ΦA spec0 c : sProp 𝕄)
      = iprop(iprop((∃ d, owns (c : Thread nD τ) scM0_0 fullShare d) ∗ restS c) ∗ (∃ r, prngReg c r)) := by
  unfold Pipeline.ΦA restS; rw [scopedRest0_eq]; simp only [scM0_0, owns_whole]; try rfl

end Cert.KernelIdeal.Fr

end
-- ==== Proof.Region0RunA.lean ====
/-
  The whole body of the first kernel region run in the case where the sequence tile is the first (the accumulator is zeroed, then the tile's logits added; the output window idle): on whole staging memrefs, the five inputs at
  their contents, it runs to the continuation holding the inputs as they were and each buffer it stored into with its
  stores written, as a list of pieces that the run itself determines. Stated at any float instance.
-/
import proofs.«123227_j30734785970848_2_alg».proof.Proof.Region0Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output's staging memref (`L5`) and in the accumulator (`LS0`), last
    first, in this case, with the proof that the body runs to the continuation holding them written. -/
noncomputable def kernelRun0_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024 .f32) (x3 : Vec F S1024x1024 .bf16) (x4 : Vec F S1024 .f32) :
    Σ' (L5 : List (View.Piece (Elt F) S1x1024x1024 .bf16)), { LS0 : List (View.Piece (Elt F) S1024x1024 .f32) //
      ∀ (xi5 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__qk_softmax_kernel i arg2 harg2 arg3 harg3 arg4 harg4 arg5 harg5 arg6 harg6 arg7 harg7 arg8 harg8) K } := by
  refine ⟨[], ?_, fun xi5 E K => ?run⟩
  case run =>
    simp only [cc0__qk_softmax_kernel_eq_skeleton]; unfold cc0__qk_softmax_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.Region0RunB.lean ====
/-
  The whole body of the first kernel region run in the case where the sequence tile is neither the first nor the last (the tile's logits added onto the accumulator as the point before left it; the output window idle): on whole staging memrefs, the five inputs at
  their contents, it runs to the continuation holding the inputs as they were and each buffer it stored into with its
  stores written, as a list of pieces that the run itself determines. Stated at any float instance.
-/
import proofs.«123227_j30734785970848_2_alg».proof.Proof.Region0RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output's staging memref (`L5`) and in the accumulator (`LS0`), last
    first, in this case, with the proof that the body runs to the continuation holding them written. -/
noncomputable def kernelRun0_B (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) :
    Σ' (L5 : List (View.Piece (Elt F) S1x1024x1024 .bf16)), { LS0 : List (View.Piece (Elt F) S1024x1024 .f32) //
      ∀ (xi5 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__qk_softmax_kernel i arg2 harg2 arg3 harg3 arg4 harg4 arg5 harg5 arg6 harg6 arg7 harg7 arg8 harg8) K } := by
  refine ⟨[], ?_, fun xi5 E K => ?run⟩
  case run =>
    simp only [cc0__qk_softmax_kernel_eq_skeleton]; unfold cc0__qk_softmax_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.Region0RunC.lean ====
/-
  The whole body of the first kernel region run in the case where the sequence tile is the last (the tile's logits added onto the accumulator as the point before left it, then the row softmax of the accumulator stored over the whole output block): on whole staging memrefs, the five inputs at
  their contents, it runs to the continuation holding the inputs as they were and each buffer it stored into with its
  stores written, as a list of pieces that the run itself determines. Stated at any float instance.
-/
import proofs.«123227_j30734785970848_2_alg».proof.Proof.Region0RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output's staging memref (`L5`) and in the accumulator (`LS0`), last
    first, in this case, with the proof that the body runs to the continuation holding them written. -/
noncomputable def kernelRun0_C (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) :
    Σ' (L5 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__qk_softmax_kernel i arg2 harg2 arg3 harg3 arg4 harg4 arg5 harg5 arg6 harg6 arg7 harg7 arg8 harg8) K } := by
  refine ⟨?_, ?_, fun E K => ?run⟩
  case run =>
    simp only [cc0__qk_softmax_kernel_eq_skeleton]; unfold cc0__qk_softmax_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fr

end
-- ==== Proof.Region0.lean ====
/-
  The first kernel region taken by itself, at any contents `V` of the core's buffers when the region is entered: what
  each control case leaves in the output's staging buffer and in the accumulator, what they hold after every grid
  point (a recursion over the points: the accumulator after a point is the case's result over what the point before
  left), the region's invariant (the accumulator at exactly that, the other scoped buffers and the generator register
  riding along), the proof data, and the body's obligation at every point. Stated at any float instance.
-/
import proofs.«123227_j30734785970848_2_alg».proof.Proof.Region0RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- What this case leaves in the output's staging buffer: its stores read back (none: a placeholder nothing consults, the window being idle and not written back at these points). -/
def out0_A_5 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024 .f32) (x3 : Vec F S1024x1024 .bf16) (x4 : Vec F S1024 .f32) : Vec F S1x1024x1024 .bf16 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- This case's stores into the accumulator cover it. -/
theorem scover0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024 .f32) (x3 : Vec F S1024x1024 .bf16) (x4 : Vec F S1024 .f32) (y : S1024x1024.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S1024x1024.size (by sl_kernel_rfl) y

/-- What this case leaves in the accumulator: its stores read back. -/
def sout0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024 .f32) (x3 : Vec F S1024x1024 .bf16) (x4 : Vec F S1024 .f32) : Vec F S1024x1024 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- What this case leaves in the output's staging buffer: its stores read back (none: a placeholder nothing consults, the window being idle and not written back at these points). -/
def out0_B_5 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) : Vec F S1x1024x1024 .bf16 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- This case's stores into the accumulator cover it. -/
theorem scover0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) (y : S1024x1024.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S1024x1024.size (by sl_kernel_rfl) y

/-- What this case leaves in the accumulator: its stores read back. -/
def sout0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) : Vec F S1024x1024 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- In the last-tile case the one store into the output's staging buffer covers it. -/
theorem cover0_C_5 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) (y : S1x1024x1024.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S1x1024x1024.size (by sl_kernel_rfl) y

/-- What this case leaves in the output's staging buffer: its stores read back. -/
def out0_C_5 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) : Vec F S1x1024x1024 .bf16 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- This case's stores into the accumulator cover it. -/
theorem scover0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) (y : S1024x1024.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S1024x1024.size (by sl_kernel_rfl) y

/-- What this case leaves in the accumulator: its stores read back. -/
def sout0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) : Vec F S1024x1024 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the output's buffer and the accumulator hold after each point -/

/-- The accumulation: the output's staging buffer and the accumulator after the body at position `n` — the case the
    position is in, run at the point's memrefs and input blocks, over the accumulator as position `n - 1` left it. -/
def outsAt0 (c : Dev nD) : (n : ℕ) → n < cfg0.N → Vec F S1x1024x1024 .bf16 × Vec F S1024x1024 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      if h1 : (n + 1) % 8 = 7 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 8 = 7 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point every scoped buffer the region does not stage through at anything; afterwards
    the accumulator at exactly what the point before left in it, the other such buffers at anything, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS c) ∗ (∃ r, prngReg c r)) := by
  cases n with
  | zero => exact absurd rfl hz
  | succ n => rfl

/-! ## The pipeline's proof data -/

/-- The proof data of the first pipeline on core `c`: the arrays as the region finds them; after the body at point `t`
    each input's buffer at its block and the output's at the accumulation's first component; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Cert.KernelIdeal.Fr

end
-- ==== Proof.Region0Body.lean ====
/-
  The body obligation of the first kernel region at every grid point. A point is in one of the three control cases,
  by its position modulo 8; the invariant hands the body the accumulator at what the point before left (at anything
  at the very first point), the case's run applies, and the invariant takes the accumulator back at this point's
  contents; at the points where the output window is idle its buffer is handed back untouched. Then the two ends of
  the invariant: it starts as the region's untouched invariant, and after the last point gives it back, forgetting
  what the accumulator holds. Stated at any float instance.
-/
import proofs.«123227_j30734785970848_2_alg».proof.Proof.Region0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 8 = 0
  · by_cases h1 : t.val % 8 = 7
    · exfalso; omega
    · rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The region's untouched invariant is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the untouched one back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Fr

end
-- ==== Proof.Region1.lean ====
/-
  The second kernel region, taken by itself at any contents `V` of the core's buffers when the region is entered.
  Its grid is 8 × 4: point (b, s) reads rows 1024·s … 1024·s + 1023 of batch b of the input, batch b's weight
  matrix, the transposed value projection and its bias, and writes the same rows of the result. The body loads its
  four inputs whole, computes one term of them (the generated payload), and stores it over the whole output block, so
  what a point leaves in the output's staging buffer is that term of the four input blocks and nothing else.
  Stated at any float instance.
-/
import proofs.«123227_j30734785970848_2_alg».proof.Proof.Gen.KernelIdeal.Launch
import proofs.«123227_j30734785970848_2_alg».proof.Proof.Gen.KernelIdeal.Skeleton
import proofs.«123227_j30734785970848_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched it there or
    kept it from an earlier point (its block index has not moved since), for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

abbrev r1_3 : Rect S1x1024x1024 := Rect.unit (s := S1x1024x1024) ![0, 0, 0] S1x1024x1024.size inb_S1x1024x1024_S1x1024x1024_0_0_0
abbrev r1_2 : Rect S1024x1024 := Rect.unit (s := S1024x1024) ![0, 0] S1024x1024.size inb_S1024x1024_S1024x1024_0_0
abbrev r1_1 : Rect S1024 := Rect.unit (s := S1024) ![0] S1024.size inb_S1024_S1024_0

/-- The output's staging buffer after the body: its one store, over the whole block, of the body's term of the four
    input blocks. -/
def out1_4 (x0 : Vec F S1x1024x1024 .f32) (x1 : Vec F S1x1024x1024 .bf16) (x2 : Vec F S1024x1024 .bf16) (x3 : Vec F S1024 .f32) : Vec F S1x1024x1024 .f32 :=
  View.canon [⟨r1_3, k1_pay1 (View.ld x0 r1_3) (View.ld x1 r1_3) (View.ld x2 r1_2) (View.ld x3 r1_1)⟩]

/-- The one store covers the block. -/
theorem cover1_4 (p0 : Vec F S1x1024x1024 .f32) (y : S1x1024x1024.Idx) :
    ∃ pc ∈ ([⟨r1_3, p0⟩] : List (View.Piece (Elt F) S1x1024x1024 .f32)), y ∈ pc.1.set :=
  View.cover_of_tiled [⟨r1_3, p0⟩] S1x1024x1024.size (by rfl) y

/-! ## The body's triple -/

set_option maxHeartbeats 1000000 in
/-- The body on whole staging memrefs, the inputs' at contents `xW` and the output's at anything, runs to the
    continuation holding the inputs' as they were and the output's at `out1_4` of them. -/
theorem sound_kernel1 (c : Dev nD) (E : Set ℕ) (i : grid1.Coords) (arg2 : Memref sig .tc .vmem S1x1024x1024 .f32) (harg2 : arg2.IsWhole) (arg3 : Memref sig .tc .vmem S1x1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .f32) (harg6 : arg6.IsWhole)
    (x0 : Vec F S1x1024x1024 .f32) (x1 : Vec F S1x1024x1024 .bf16) (x2 : Vec F S1024x1024 .bf16) (x3 : Vec F S1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__attn_out_kernel i arg2 harg2 arg3 harg3 arg4 harg4 arg5 harg5 arg6 harg6) K := by
  simp only [cc1__attn_out_kernel_eq_skeleton]; unfold cc1__attn_out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the second pipeline on core `c`: the arrays as the region finds them; after the body at point
    `t` each input's buffer at its block and the output's at `out1_4` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Frame.lean ====
/-
  The whole program's run. Its @main is one stretch of host operations (the three weight matrices transposed and
  converted), then the first kernel region, then the second. The core's buffer contents at each boundary are a fold
  from the launch memory: after the host stretch; after the first region (its arrays at what its write-backs leave,
  every other buffer as entered); after the second region likewise. Each region is entered from every unscoped buffer
  held at the boundary's contents and left at the next boundary's; no argument array is written by a host operation or
  as a region's output, so each reads back to its launch contents; and the result buffer ends at what the second
  region's write-backs leave. Stated at any float instance.
-/
import proofs.«123227_j30734785970848_2_alg».proof.Proof.Region0Body
import proofs.«123227_j30734785970848_2_alg».proof.Proof.Region1
import proofs.«123227_j30734785970848_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- A buffer no host operation of the stretch writes holds its launch contents after it. -/
theorem W1_of (c : Dev nD) (r : Ref sig .tc) (h : r ∉ hostOps0_W) : W1 m ρ c (Proc.devRef .tc r) = m ((c : Thread nD τ).loc r) :=
  Gen.V1_of m c r h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_of m ρ c main_arg0 (by decide)

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_of m ρ c main_arg1 (by decide)

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = m ((c : Thread nD τ).loc main_arg2) := W1_of m ρ c main_arg2 (by decide)

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of m ρ c main_arg3 (by decide)

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = m ((c : Thread nD τ).loc main_arg4) := W1_of m ρ c main_arg4 (by decide)

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = m ((c : Thread nD τ).loc main_arg5) := W1_of m ρ c main_arg5 (by decide)

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 3).trans (((dat1 (V2 m ρ) c).arrAt_in 3 rfl _).trans (A_eq1 (V2 m ρ) c 3))
    _ = W1 m ρ c (Proc.devRef .tc main_arg6) := W2_of_ne m ρ c main_arg6 (by decide)
    _ = m ((c : Thread nD τ).loc main_arg6) := W1_of m ρ c main_arg6 (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    with the result buffer at what the second region's write-backs leave and every argument array as launched. -/
theorem run_main : θ_run defs (onTc (τ := τ) (main (F := F))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Fr

end
-- ==== Proof.RefRun.lean ====
import proofs.«123227_j30734785970848_2_alg».proof.Proof.Gen.ReferenceIdeal.Run
import proofs.«123227_j30734785970848_2_alg».proof.Proof.Gen.ReferenceIdeal.Read

/-! The reference program's run and its read-at-an-index lemmas, brought into scope for the modules that
    compare the reference's result with the kernel's. -/
-- ==== Proof.Frames.lean ====
/-
  Four of the five conjuncts. Each kernel program's frame — every weakly fair execution terminates, nothing faults, the
  argument arrays end unchanged — is its run with the result dropped: the word-level program's and the idealized
  program's are the same proof at two float instances. The reference has no kernel: its frame is its run with the
  result dropped. The idealization rewrote nothing, so there is nothing to preserve.
-/
import proofs.«123227_j30734785970848_2_alg».proof.Defs
import proofs.«123227_j30734785970848_2_alg».proof.Proof.Gen.Kernel
import proofs.«123227_j30734785970848_2_alg».proof.Proof.Gen.KernelIdeal
import proofs.«123227_j30734785970848_2_alg».proof.Proof.Gen.ReferenceIdeal
import proofs.«123227_j30734785970848_2_alg».proof.Proof.Gen.Pre_finite_inputs
import proofs.«123227_j30734785970848_2_alg».proof.Proof.BitsFrame
import proofs.«123227_j30734785970848_2_alg».proof.Proof.Frame
import proofs.«123227_j30734785970848_2_alg».proof.Proof.RefRun

noncomputable section

namespace Cert.Proof.Claims

open Idealize.ShloMosaic Idealize.SL.Sem

theorem frame_k : Cert.frame_Kernel := fun m ρ _ =>
  (θ_run Cert.Kernel.defs _ _).mono (fun _ h c => (h c).2) (Cert.Kernel.Fr.run_main (F := Bits) m ρ)

theorem frame_ki : Cert.frame_KernelIdeal := fun m ρ _ =>
  (θ_run Cert.KernelIdeal.defs _ _).mono (fun _ h c => (h c).2) (Cert.KernelIdeal.Fr.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Claims

end
-- ==== Proof.Region0Cases.lean ====
/-
  What the three control cases of the first kernel region leave, read back as values: where the sequence tile is the
  first, the accumulator ends at the zero block plus the tile's logits; elsewhere at what the point before left plus
  the tile's logits; and at the last tile the output block is the row softmax of that sum. Each is the case's one
  covering store read back, its loads reading whole buffers. Stated at any float instance.
-/
import proofs.«123227_j30734785970848_2_alg».proof.Proof.Region0
import Idealize.ShloMosaic.Lib.Pipeline.Value

set_option maxRecDepth 16384

noncomputable section

namespace Cert.KernelIdeal.Fr

open Idealize.ShloMosaic Idealize.ShloMosaic.TcCoe Idealize.ShloMosaic.Tactic Idealize.SL.Sem
open Idealize.ShloMosaic.Pipeline (Dat)
open Cert.KernelIdeal Cert.KernelIdeal.Gen

variable {F : FTy → Type} [FloatOps F]

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The first tile: the accumulator is zeroed, the zero block read back, and the tile's logits added onto it. -/
theorem sout_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : cond0_0 i) (hc1 : ¬cond0_1 i)
    (x0 : Vec F S1x512x1024 .f32) (x1 : Vec F S1024x1024 .bf16) (x2 : Vec F S1024 .f32) (x3 : Vec F S1024x1024 .bf16) (x4 : Vec F S1024 .f32) :
    sout0_A_0 c i arg2 harg2 arg3 harg3 arg4 harg4 arg5 harg5 arg6 harg6 arg7 harg7 arg8 harg8 hc0 hc1 x0 x1 x2 x3 x4 = k0_pay2 x0 x1 x3 x2 x4 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x1024) zeros2, View.readCov_unit_zero (S := S1024x1024) _ zeros2]
  simp only [View.readAt_eq_ld, harg2.read_unread, harg3.read_unread, harg4.read_unread, harg5.read_unread, harg6.read_unread, harg8.read_unread,
    View.ld_unit_zero (S := S1x512x1024) zeros3, View.ld_unit_zero (S := S1024x1024) zeros2, View.ld_unit_zero (S := S1024) zeros1]

/-- A middle tile: the tile's logits added onto the accumulator as the point before left it. -/
theorem sout_B (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : ¬cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) :
    sout0_B_0 c i arg2 harg2 arg3 harg3 arg4 harg4 arg5 harg5 arg6 harg6 arg7 harg7 arg8 harg8 hc0 hc1 x0 x1 x2 x3 x4 xs0 = k0_pay2 x0 x1 x3 x2 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero zeros2]
  simp only [View.readAt_eq_ld, harg2.read_unread, harg3.read_unread, harg4.read_unread, harg5.read_unread, harg6.read_unread, harg8.read_unread,
    View.ld_unit_zero (S := S1x512x1024) zeros3, View.ld_unit_zero (S := S1024x1024) zeros2, View.ld_unit_zero (S := S1024) zeros1]

/-- The last tile: the same sum in the accumulator, -/
theorem sout_C (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) :
    sout0_C_0 c i arg2 harg2 arg3 harg3 arg4 harg4 arg5 harg5 arg6 harg6 arg7 harg7 arg8 harg8 hc0 hc1 x0 x1 x2 x3 x4 xs0 = k0_pay2 x0 x1 x3 x2 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero zeros2]
  simp only [View.readAt_eq_ld, harg2.read_unread, harg3.read_unread, harg4.read_unread, harg5.read_unread, harg6.read_unread, harg8.read_unread,
    View.ld_unit_zero (S := S1x512x1024) zeros3, View.ld_unit_zero (S := S1024x1024) zeros2, View.ld_unit_zero (S := S1024) zeros1]

/-- and the output block at the row softmax of that sum, read back from the accumulator. -/
theorem out_C (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : cond0_1 i)
    (x0 : Vec F S1x512x1024 .f32) (x1 : Vec F S1024x1024 .bf16) (x2 : Vec F S1024 .f32) (x3 : Vec F S1024x1024 .bf16) (x4 : Vec F S1024 .f32) (xs0 : Vec F S1024x1024 .f32) :
    out0_C_5 c i arg2 harg2 arg3 harg3 arg4 harg4 arg5 harg5 arg6 harg6 arg7 harg7 arg8 harg8 hc0 hc1 x0 x1 x2 x3 x4 xs0 = k0_pay3 (k0_pay2 x0 x1 x3 x2 x4 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero zeros3, View.readCov_unit_zero (S := S1024x1024) _ zeros2]
  simp only [View.readAt_eq_ld, harg2.read_unread, harg3.read_unread, harg4.read_unread, harg5.read_unread, harg6.read_unread, harg8.read_unread,
    View.ld_unit_zero (S := S1x512x1024) zeros3, View.ld_unit_zero (S := S1024x1024) zeros2, View.ld_unit_zero (S := S1024) zeros1]

end Cert.KernelIdeal.Fr

end
-- ==== Proof.Region0Value.lean ====
/-
  The first kernel region's output array after the run. The accumulator after a grid point is a chain over the points:
  at the first sequence tile of a batch the zero block plus the tile's logits, afterwards what the point before left
  plus the tile's logits; the found pieces of the frame are that chain (by induction on the point). At the last tile
  of batch b the body stores the row softmax of the accumulator over the whole output block, the only point of the
  batch that writes block b back; those eight blocks tile the output array. Stated at any float instance.
-/
import proofs.«123227_j30734785970848_2_alg».proof.Proof.Region0Cases

set_option maxRecDepth 16384

noncomputable section

namespace Cert.KernelIdeal.Fr

open Idealize.ShloMosaic Idealize.ShloMosaic.TcCoe Idealize.ShloMosaic.Tactic Idealize.SL.Sem
open Idealize.ShloMosaic.Pipeline (Dat)
open Cert.KernelIdeal Cert.KernelIdeal.Gen

variable {F : FTy → Type} [FloatOps F]

variable (V : (c : Dev nD) → (b : Ref sig .tc) → Buf (Elt F) ((c : Thread nD τ).loc b))

/-- One point's step: the tile's logits, from the point's input blocks, added onto `acc`. -/
def stepAt (c : Dev nD) (t : Fin cfg0.N) (acc : Vec F S1024x1024 .f32) : Vec F S1024x1024 .f32 :=
  k0_pay2 (iblk0 V c 0 t) (iblk0 V c 1 t) (iblk0 V c 3 t) (iblk0 V c 2 t) (iblk0 V c 4 t) acc

/-- The accumulator after position `n`: restarted from the zero block at the first tile of each batch. -/
def accAt (c : Dev nD) : (n : ℕ) → n < cfg0.N → Vec F S1024x1024 .f32
  | 0, h => stepAt V c ⟨0, h⟩ (k0_pay1 (F := F))
  | n + 1, h => if (n + 1) % 8 = 0 then stepAt V c ⟨n + 1, h⟩ (k0_pay1 (F := F)) else stepAt V c ⟨n + 1, h⟩ (accAt c n (Nat.lt_of_succ_lt h))

/-- What the frame found in the accumulator after each point IS that chain. -/
theorem outsAt_snd (c : Dev nD) : ∀ (n : ℕ) (h : n < cfg0.N), (outsAt0 V c n h).2 = accAt V c n h
  | 0, h => by
    have hA0 : (⟨0, h⟩ : Fin cfg0.N).val % 8 = 0 := rfl
    have hA1 : ¬(⟨0, h⟩ : Fin cfg0.N).val % 8 = 7 := by dsimp only; omega
    rw [outsAt0_A V c ⟨0, h⟩ hA0 hA1]
    dsimp only
    rw [sout_A, accAt]
    rfl
  | n + 1, h => by
    by_cases h0 : (n + 1) % 8 = 0
    · have hA0 : (⟨n + 1, h⟩ : Fin cfg0.N).val % 8 = 0 := h0
      have hA1 : ¬(⟨n + 1, h⟩ : Fin cfg0.N).val % 8 = 7 := by dsimp only; omega
      rw [outsAt0_A V c ⟨n + 1, h⟩ hA0 hA1]
      dsimp only
      rw [sout_A, accAt, if_pos h0]
      rfl
    · have hB0 : ¬(⟨n + 1, h⟩ : Fin cfg0.N).val % 8 = 0 := h0
      by_cases h1 : (n + 1) % 8 = 7
      · have hC1 : (⟨n + 1, h⟩ : Fin cfg0.N).val % 8 = 7 := h1
        rw [outsAt0_C V c ⟨n + 1, h⟩ hB0 hC1]
        dsimp only
        rw [sout_C, accAt, if_neg h0]
        show stepAt V c ⟨n + 1, h⟩ (outsAt0 V c n _).2 = stepAt V c ⟨n + 1, h⟩ (accAt V c n _)
        rw [outsAt_snd c n]
      · have hB1 : ¬(⟨n + 1, h⟩ : Fin cfg0.N).val % 8 = 7 := h1
        rw [outsAt0_B V c ⟨n + 1, h⟩ hB0 hB1]
        dsimp only
        rw [sout_B, accAt, if_neg h0]
        show stepAt V c ⟨n + 1, h⟩ (outsAt0 V c n _).2 = stepAt V c ⟨n + 1, h⟩ (accAt V c n _)
        rw [outsAt_snd c n]

/-- At the last tile of a batch the output's staging buffer holds the row softmax of the accumulator. -/
theorem outsAt_fst_C (c : Dev nD) (t : Fin cfg0.N) (h0 : ¬t.val % 8 = 0) (h1 : t.val % 8 = 7) :
    (outsAt0 V c t.val t.isLt).1 = k0_pay3 (accAt V c t.val t.isLt) := by
  have hs := outsAt_snd V c t.val t.isLt
  rw [outsAt0_C V c t h0 h1] at hs ⊢
  dsimp only at hs ⊢
  rw [sout_C] at hs
  rw [out_C, hs]

/-- The accumulator chain as a total function of the position (outside the grid: the zero block, never consulted). -/
def accAtN (c : Dev nD) (n : ℕ) : Vec F S1024x1024 .f32 :=
  if h : n < cfg0.N then accAt V c n h else k0_pay1 (F := F)

theorem accAtN_eq (c : Dev nD) (t : Fin cfg0.N) : accAtN V c t.val = accAt V c t.val t.isLt := dif_pos t.isLt

/-- An index of the output array, inside its batch's block. -/
abbrev inBlk5 (i : S8x1024x1024.Idx) : S1x1024x1024.Idx :=
  fun a => match a with
    | ⟨0, _⟩ => (0 : Fin 1)
    | ⟨1, _⟩ => i 1
    | ⟨2, _⟩ => i 2

/-- What the output array ends holding: at `(b, f, g)` the row softmax of batch `b`'s accumulator after its last
    tile, at `(f, g)`. -/
def G5 (c : Dev nD) : S8x1024x1024.Idx → Elt F .bf16 :=
  fun i => k0_pay3 (accAtN V c (8 * (i 0).val + 7)) (inBlk5 i)

/-- The output window's block index at a point: the batch coordinate, then zeros. -/
theorem idx_facts5 : ∀ t : Fin cfg0.N, win0_5.index t (0 : Fin 3) = t.val / 8 ∧ win0_5.index t (1 : Fin 3) = 0 ∧ win0_5.index t (2 : Fin 3) = 0 :=
  (by decide +kernel : ∀ t : Fin grid0.N, _)

/-- What a point that writes the output back writes is its block of `G5`. -/
theorem flushed5_eq (c : Dev nD) (t : Fin cfg0.N) (hf : (cfg0.win 5).flush t = true) :
    (dat0 V c).flushed 5 t = ((cfg0.win 5).blk t).view.read (Elt F) (G5 V c) := by
  have h7 : t.val % 8 = 7 := (flush0_5 t).mp hf
  have hN : t.val < 64 := lt_of_lt_of_eq t.isLt (show cfg0.N = 64 from N_0)
  show (cfg0.win 5).cut (grid0.coords t) ((dat0 V c).after 5 t) = _
  rw [after0_5, outsAt_fst_C V c t (by omega) h7]
  obtain ⟨e0, e1, e2⟩ := idx_facts5 t
  funext j
  show k0_pay3 (accAt V c t.val t.isLt) j = G5 V c (((cfg0.win 5).blk t).view.emb j)
  unfold G5
  have hj0 : (j 0).val < 1 := (j 0).isLt
  have ev0 : ((((cfg0.win 5).blk t).view.emb j) 0).val = t.val / 8 := by
    show win0_5.index t (0 : Fin 3) * 1 + 1 * (j 0).val = t.val / 8
    omega
  have ea : accAtN V c (8 * ((((cfg0.win 5).blk t).view.emb j) 0).val + 7) = accAt V c t.val t.isLt :=
    (congrArg (accAtN V c) (by rw [ev0]; omega)).trans (accAtN_eq V c t)
  have ej : inBlk5 (((cfg0.win 5).blk t).view.emb j) = j := by
    funext a; apply Fin.ext
    match a with
    | ⟨0, _⟩ => show (0 : Nat) = (j 0).val; omega
    | ⟨1, _⟩ => show win0_5.index t (1 : Fin 3) * 1024 + 1 * (j 1).val = (j 1).val; omega
    | ⟨2, _⟩ => show win0_5.index t (2 : Fin 3) * 1024 + 1 * (j 2).val = (j 2).val; omega
  rw [ea, ej]

/-- An index of the output array is in point `t`'s block iff each coordinate is in the block's range on its axis. -/
theorem mem_blk5 (t : Fin cfg0.N) (i : S8x1024x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v6).slice (win0_5.rect t)).set ↔ _
  rw [View.set_slice_whole, Rect.mem_set_unit]
  exact Iff.rfl

/-- Every index of the output array is in the block some writing point writes: batch `b`'s last tile. -/
theorem cover5 (i : S8x1024x1024.Idx) :
    ∃ t : Fin cfg0.N, (cfg0.win 5).flush t = true ∧ i ∈ ((cfg0.win 5).blk t).view.set := by
  have hi0 : (i 0).val < 8 := (i 0).isLt
  have hi1 : (i 1).val < 1024 := (i 1).isLt
  have hi2 : (i 2).val < 1024 := (i 2).isLt
  have hlt : 8 * (i 0).val + 7 < cfg0.N := by rw [show cfg0.N = 64 from N_0]; omega
  refine ⟨⟨8 * (i 0).val + 7, hlt⟩, (flush0_5 _).mpr (by show (8 * (i 0).val + 7) % 8 = 7; omega), ?_⟩
  obtain ⟨e0, e1, e2⟩ := idx_facts5 ⟨8 * (i 0).val + 7, hlt⟩
  have e0' : win0_5.index ⟨8 * (i 0).val + 7, hlt⟩ (0 : Fin 3) = (i 0).val := by rw [e0]; show (8 * (i 0).val + 7) / 8 = (i 0).val; omega
  rw [mem_blk5]
  intro a
  match a with
  | ⟨0, _⟩ => show win0_5.index ⟨8 * (i 0).val + 7, hlt⟩ (0 : Fin 3) * 1 ≤ (i 0).val ∧ (i 0).val < win0_5.index ⟨8 * (i 0).val + 7, hlt⟩ (0 : Fin 3) * 1 + 1; rw [e0']; omega
  | ⟨1, _⟩ => show win0_5.index ⟨8 * (i 0).val + 7, hlt⟩ (1 : Fin 3) * 1024 ≤ (i 1).val ∧ (i 1).val < win0_5.index ⟨8 * (i 0).val + 7, hlt⟩ (1 : Fin 3) * 1024 + 1024; rw [e1]; omega
  | ⟨2, _⟩ => show win0_5.index ⟨8 * (i 0).val + 7, hlt⟩ (2 : Fin 3) * 1024 ≤ (i 2).val ∧ (i 2).val < win0_5.index ⟨8 * (i 0).val + 7, hlt⟩ (2 : Fin 3) * 1024 + 1024; rw [e2]; omega

/-- The output array after the run. -/
theorem final5 (c : Dev nD) : (dat0 V c).arrAt 5 cfg0.N = G5 V c :=
  (dat0 V c).arrAt_eq_of_cover 5 (G5 V c) (flushed5_eq V c) (cover5)

end Cert.KernelIdeal.Fr

end
-- ==== Proof.HostPrefix.lean ====
import proofs.«123227_j30734785970848_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

/-! What the host operations before the first kernel region leave in the core's buffers, on the extended reals.

    The three weight matrices are each transposed and then narrowed to the 16-bit format; on the extended reals the
    narrowing is the identity, so each of the three new buffers holds its matrix transposed: entry `(j, f)` is the
    argument's entry `(f, j)`. No operation writes an argument, so the four other arguments are as launched. -/

noncomputable section

namespace Cert.KernelIdeal.HostPrefix

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ) (c : Dev nD)

/-! ## The three transposed weight matrices -/

/-- The first projection's weights, transposed: entry `(j, f)` is the argument's entry `(f, j)`. -/
theorem V1_main_v1 (j f : Fin 1024) :
    (Gen.V1 m c main_v1 : S1024x1024.Idx → EReal) (ix2 j f) = (m ((c : Thread nD τ).loc main_arg1) : S1024x1024.Idx → EReal) (ix2 f j) := by
  have e : (Gen.V1 m c main_v1 : S1024x1024.Idx → EReal)
      = truncf (F := Ideal) (φ := .f32) .bf16 (transpose S1024x1024 [1, 0] (m ((c : Thread nD τ).loc main_arg1) : S1024x1024.Idx → Elt Ideal .f32) transposes_S1024x1024_S1024x1024_1_0) bitsLt_bf16_f32 := by
    dsimp only [Gen.V1, Gen.hostOps0]
    after_results
  rw [e]
  exact transpose_ix2_apply _ _ j f

/-- The second projection's weights, transposed. -/
theorem V1_main_v3 (j f : Fin 1024) :
    (Gen.V1 m c main_v3 : S1024x1024.Idx → EReal) (ix2 j f) = (m ((c : Thread nD τ).loc main_arg3) : S1024x1024.Idx → EReal) (ix2 f j) := by
  have e : (Gen.V1 m c main_v3 : S1024x1024.Idx → EReal)
      = truncf (F := Ideal) (φ := .f32) .bf16 (transpose S1024x1024 [1, 0] (m ((c : Thread nD τ).loc main_arg3) : S1024x1024.Idx → Elt Ideal .f32) transposes_S1024x1024_S1024x1024_1_0) bitsLt_bf16_f32 := by
    dsimp only [Gen.V1, Gen.hostOps0]
    after_results
  rw [e]
  exact transpose_ix2_apply _ _ j f

/-- The last projection's weights, transposed. -/
theorem V1_main_v5 (j f : Fin 1024) :
    (Gen.V1 m c main_v5 : S1024x1024.Idx → EReal) (ix2 j f) = (m ((c : Thread nD τ).loc main_arg5) : S1024x1024.Idx → EReal) (ix2 f j) := by
  have e : (Gen.V1 m c main_v5 : S1024x1024.Idx → EReal)
      = truncf (F := Ideal) (φ := .f32) .bf16 (transpose S1024x1024 [1, 0] (m ((c : Thread nD τ).loc main_arg5) : S1024x1024.Idx → Elt Ideal .f32) transposes_S1024x1024_S1024x1024_1_0) bitsLt_bf16_f32 := by
    dsimp only [Gen.V1, Gen.hostOps0]
    after_results
  rw [e]
  exact transpose_ix2_apply _ _ j f

/-! ## The arguments no operation writes -/

theorem V1_main_arg0 : Gen.V1 m c main_arg0 = m ((c : Thread nD τ).loc main_arg0) :=
  (Gen.V1_of m c main_arg0 (by decide)).trans rfl
theorem V1_main_arg2 : Gen.V1 m c main_arg2 = m ((c : Thread nD τ).loc main_arg2) :=
  (Gen.V1_of m c main_arg2 (by decide)).trans rfl
theorem V1_main_arg4 : Gen.V1 m c main_arg4 = m ((c : Thread nD τ).loc main_arg4) :=
  (Gen.V1_of m c main_arg4 (by decide)).trans rfl
theorem V1_main_arg6 : Gen.V1 m c main_arg6 = m ((c : Thread nD τ).loc main_arg6) :=
  (Gen.V1_of m c main_arg6 (by decide)).trans rfl

end Cert.KernelIdeal.HostPrefix

end
-- ==== Proof.JoinEntry.lean ====
/-
  What the second kernel region finds in the arrays it reads, on the extended reals: the input and the last bias are
  the launch memory's (no host operation and neither region writes them); the value projection is the launch matrix
  transposed (the host stretch, which the first region leaves alone); and the weights are what the first region's
  write-backs left: at (b, f, g) the row softmax of batch b's accumulator after its last sequence tile.
-/
import proofs.«123227_j30734785970848_2_alg».proof.Proof.Frame
import proofs.«123227_j30734785970848_2_alg».proof.Proof.Region0Value
import proofs.«123227_j30734785970848_2_alg».proof.Proof.HostPrefix

set_option maxRecDepth 16384

noncomputable section

namespace Cert.KernelIdeal.Fr

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-- At the first region's entry the buffers are the launch memory after the host stretch. -/
theorem V1_eq (b : Ref sig .tc) : V1 m ρ c b = Gen.V1 m c b := rfl

theorem V2_main_arg0 : V2 m ρ c main_arg0 = m ((c : Thread nD τ).loc main_arg0) :=
  ((W2_arr m ρ c 0).trans (((dat0 (V1 m ρ) c).arrAt_in 0 rfl _).trans (A_eq0 (V1 m ρ) c 0))).trans (W1_of m ρ c main_arg0 (by decide))

theorem V2_main_arg6 : V2 m ρ c main_arg6 = m ((c : Thread nD τ).loc main_arg6) :=
  (W2_of_ne m ρ c main_arg6 (by decide)).trans (W1_of m ρ c main_arg6 (by decide))

theorem V2_main_v5 : V2 m ρ c main_v5 = Gen.V1 m c main_v5 :=
  W2_of_ne m ρ c main_v5 (by decide)

theorem V2_main_v5_apply (g h : Fin 1024) :
    (V2 m ρ c main_v5 : S1024x1024.Idx → EReal) (ix2 g h) = (m ((c : Thread nD τ).loc main_arg5) : S1024x1024.Idx → EReal) (ix2 h g) := by
  rw [V2_main_v5]
  exact Cert.KernelIdeal.HostPrefix.V1_main_v5 m c g h

theorem V2_main_v6 : V2 m ρ c main_v6 = G5 (V1 m ρ) c :=
  (W2_arr m ρ c 5).trans (final5 (V1 m ρ) c)

end Cert.KernelIdeal.Fr

end
-- ==== Proof.Region0Blocks.lean ====
/-
  The first kernel region's input blocks in terms of the whole arrays. At point t = 8·b + s the input window reads rows
  512·s … 512·s + 511 of batch b; the two projection matrices and the two biases are read whole at every point.
  Stated at any float instance.
-/
import proofs.«123227_j30734785970848_2_alg».proof.Proof.Region0
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

variable {F : FTy → Type} [FloatOps F]

variable (V : (c : Dev nD) → (b : Ref sig .tc) → Buf (Elt F) ((c : Thread nD τ).loc b))

/-- The printed index maps over the grid: the input's block index is (batch, sequence tile, 0); the matrices' and the
    biases' are zero. -/
theorem idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- The input block at point `t`, at row `r` and feature `j`: batch `t / 8`, row `512·(t % 8) + r`. -/
theorem iblk0_0_apply (c : Dev nD) (t : Fin cfg0.N) (r : Fin 512) (j : Fin 1024)
    (hb : t.val / 8 < 8) (hs : 512 * (t.val % 8) + r.val < 4096) :
    (iblk0 V c 0 t : Vec F S1x512x1024 .f32) (ix3 (0 : Fin 1) r j)
      = (V c main_arg0 : S8x4096x1024.Idx → Elt F .f32) (ix3 (⟨t.val / 8, hb⟩ : Fin 8) (⟨512 * (t.val % 8) + r.val, hs⟩ : Fin 4096) j) := by
  obtain ⟨e0, e1, e2, -⟩ := idx_facts0 t
  unfold iblk0
  rw [View.read_apply]
  show V c main_arg0 _ = V c main_arg0 _
  congr 1
  funext a
  apply Fin.ext
  match a with
  | ⟨0, _⟩ => show win0_0.index t (0 : Fin 3) * 1 + 1 * (0 : Nat) = t.val / 8; omega
  | ⟨1, _⟩ => show win0_0.index t (1 : Fin 3) * 512 + 1 * r.val = 512 * (t.val % 8) + r.val; omega
  | ⟨2, _⟩ => show win0_0.index t (2 : Fin 3) * 1024 + 1 * j.val = j.val; omega

/-- The first projection matrix is read whole. -/
theorem iblk0_1_apply (c : Dev nD) (t : Fin cfg0.N) (j f : Fin 1024) :
    (iblk0 V c 1 t : Vec F S1024x1024 .bf16) (ix2 j f) = (V c main_v1 : S1024x1024.Idx → Elt F .bf16) (ix2 j f) := by
  obtain ⟨-, -, -, e0, e1, -⟩ := idx_facts0 t
  unfold iblk0
  rw [View.read_apply]
  show V c main_v1 _ = V c main_v1 _
  congr 1
  funext a
  apply Fin.ext
  match a with
  | ⟨0, _⟩ => show win0_1.index t (0 : Fin 2) * 1024 + 1 * j.val = j.val; omega
  | ⟨1, _⟩ => show win0_1.index t (1 : Fin 2) * 1024 + 1 * f.val = f.val; omega

/-- The first bias is read whole. -/
theorem iblk0_2_apply (c : Dev nD) (t : Fin cfg0.N) (f : Fin 1024) :
    (iblk0 V c 2 t : Vec F S1024 .f32) (ix1 f) = (V c main_arg2 : S1024.Idx → Elt F .f32) (ix1 f) := by
  obtain ⟨-, -, -, -, -, e0, -⟩ := idx_facts0 t
  unfold iblk0
  rw [View.read_apply]
  show V c main_arg2 _ = V c main_arg2 _
  congr 1
  funext a
  apply Fin.ext
  match a with
  | ⟨0, _⟩ => show win0_2.index t (0 : Fin 1) * 1024 + 1 * f.val = f.val; omega

/-- The second projection matrix is read whole. -/
theorem iblk0_3_apply (c : Dev nD) (t : Fin cfg0.N) (j f : Fin 1024) :
    (iblk0 V c 3 t : Vec F S1024x1024 .bf16) (ix2 j f) = (V c main_v3 : S1024x1024.Idx → Elt F .bf16) (ix2 j f) := by
  obtain ⟨-, -, -, -, -, -, e0, e1, -⟩ := idx_facts0 t
  unfold iblk0
  rw [View.read_apply]
  show V c main_v3 _ = V c main_v3 _
  congr 1
  funext a
  apply Fin.ext
  match a with
  | ⟨0, _⟩ => show win0_3.index t (0 : Fin 2) * 1024 + 1 * j.val = j.val; omega
  | ⟨1, _⟩ => show win0_3.index t (1 : Fin 2) * 1024 + 1 * f.val = f.val; omega

/-- The second bias is read whole. -/
theorem iblk0_4_apply (c : Dev nD) (t : Fin cfg0.N) (f : Fin 1024) :
    (iblk0 V c 4 t : Vec F S1024 .f32) (ix1 f) = (V c main_arg4 : S1024.Idx → Elt F .f32) (ix1 f) := by
  obtain ⟨-, -, -, -, -, -, -, -, e0⟩ := idx_facts0 t
  unfold iblk0
  rw [View.read_apply]
  show V c main_arg4 _ = V c main_arg4 _
  congr 1
  funext a
  apply Fin.ext
  match a with
  | ⟨0, _⟩ => show win0_4.index t (0 : Fin 1) * 1024 + 1 * f.val = f.val; omega

end Cert.KernelIdeal.Fr

end
-- ==== Proof.Spec.lean ====
import Idealize.ShloMosaic.PureOps.Ideal
import Idealize.ShloMosaic.Lib.ValueIdx

/-! The result both programs compute, as one function of the argument arrays on the extended reals, index by
    index: two affine projections of the input along its last axis, their product contracted over the sequence
    axis (the logits), the softmax of each row of logits, the input contracted with those weights, and a last
    affine projection.

    The softmax of one row is a function of its own. Both programs compute it with the same operations in the
    same order — the row's maximum from −∞, each entry's distance below it, the exponential, the row's sum of
    exponentials, the quotient — so each side's softmax is compared with this one function and never with the
    other side's text. -/

noncomputable section

namespace Cert.Spec

open Idealize.ShloMosaic Idealize.ShloMosaic.ValueIdx

/-- The value both programs start a row maximum from: the word of −∞. -/
def negInf : EReal := Ideal.ofBits .f32 0xFF800000#32

/-- A row's maximum as both programs take it: `max` folded over the row's 1024 entries from −∞, then once
    more against −∞. -/
def rowMax (r : Fin 1024 → EReal) : EReal :=
  max negInf ((Finset.univ : Finset (Fin 1024)).fold max negInf r)

/-- The softmax of one row of 1024 logits at entry `g`: the exponential of the entry's distance below the row
    maximum, divided by the sum of those exponentials over the row. -/
def softmaxRow (r : Fin 1024 → EReal) (g : Fin 1024) : EReal :=
  Ideal.div (Ideal.exp (r g - rowMax r)) (∑ g' : Fin 1024, Ideal.exp (r g' - rowMax r))

/-- An input array `[8, 4096, 1024]`, a weight matrix `[1024, 1024]` stored output-major, a bias `[1024]`. -/
abbrev Arr3 : Type := (⟨3, ![8, 4096, 1024]⟩ : Shape).Idx → EReal
abbrev Mat : Type := (⟨2, ![1024, 1024]⟩ : Shape).Idx → EReal
abbrev Bias : Type := (⟨1, ![1024]⟩ : Shape).Idx → EReal

/-- The affine projection of row `(b, s)` of the input onto output feature `o`: `Σ_f x[b,s,f]·W[o,f] + bias[o]`. -/
def proj (x : Arr3) (W : Mat) (bias : Bias) (b : Fin 8) (s : Fin 4096) (o : Fin 1024) : EReal :=
  ∑ f : Fin 1024, x (ix3 b s f) * W (ix2 o f) + bias (ix1 o)

/-- The logits of batch `b`: the two projections contracted over the whole sequence axis,
    `Σ_s q[b,s,f]·k[b,s,g]`. -/
def logits (x : Arr3) (Wq : Mat) (bq : Bias) (Wk : Mat) (bk : Bias) (b : Fin 8) (f g : Fin 1024) : EReal :=
  ∑ s : Fin 4096, proj x Wq bq b s f * proj x Wk bk b s g

/-- The result at `(b, s, h)`: the input row contracted with the softmax weights, then projected by `Wv` with
    its bias: `Σ_g (Σ_f x[b,s,f]·softmax(logits[b,f,·])[g])·Wv[h,g] + bv[h]`. -/
def out (x : Arr3) (Wq : Mat) (bq : Bias) (Wk : Mat) (bk : Bias) (Wv : Mat) (bv : Bias)
    (b : Fin 8) (s : Fin 4096) (h : Fin 1024) : EReal :=
  ∑ g : Fin 1024, (∑ f : Fin 1024, x (ix3 b s f) * softmaxRow (logits x Wq bq Wk bk b f) g) * Wv (ix2 h g)
    + bv (ix1 h)

end Cert.Spec

end
-- ==== Proof.PaySoftmax.lean ====
import proofs.«123227_j30734785970848_2_alg».proof.Proof.Gen.KernelIdeal.Skeleton
import proofs.«123227_j30734785970848_2_alg».proof.Proof.Spec
import Idealize.ShloMosaic.Lib.ValueIdx
import Idealize.ShloMosaic.Lib.ValueLayout
import Idealize.ShloMosaic.Lib.Pipeline.Value
import Idealize.ShloMosaic.PureOps.Ideal.Laws

/-! The first kernel's last payload — the softmax of each row of the accumulated 1024 × 1024 logits — read at one
    index. Each row's maximum is taken from −∞ over the row's 1024 entries and once more against −∞; the maxima, one
    per row, are viewed as a column and spread over the row's entries; each entry's distance below its row's maximum
    is exponentiated; the exponentials are summed along the row, the sums again viewed as a column and spread; and
    each exponential is divided by its row's sum. Read at row `f`, entry `g`, this is the specification's softmax
    of row `f` at `g`. -/

noncomputable section

namespace Cert.KernelIdeal.Pay

open Idealize.ShloMosaic Idealize.ShloMosaic.ValueIdx Cert.KernelIdeal Cert.KernelIdeal.Gen

section Layout
variable {α : Type}

/-- An `[a]` array viewed as one column `[a, 1]` reads, at `(i, u)`, the operand at `i`, whatever the unit
    coordinate `u`: the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast over `b` columns reads, at `(p, c)`, the column's entry of row `p`: the row axis
    is kept (unless it is itself a unit axis, and then `p` is `0`), the unit axis reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- One value per row, viewed as a column and spread over the row: at `(f, g)` it is row `f`'s value. -/
theorem col_apply (m : FVec Ideal S1024 .f32) (f g : Fin 1024) :
    broadcastTo S1024x1024 (shapeCast S1024x1 m shapeCasts_S1024_S1024x1) broadcasts_S1024x1_S1024x1024 (ix2 f g)
      = m (ix1 f) :=
  (broadcastTo_a1_ab_apply _ _ f g).trans (shapeCast_a_a1_apply m _ f 0)

/-- The index of the matrix that lies over row `f` with column coordinate `k` is `(f, k)`. -/
theorem lift_row (h : S1024x1024.Reduces [1] S1024) (f k : Fin 1024) : h.lift (ix1 f) k = ix2 f k := by
  funext c
  match c with
  | ⟨0, _⟩ => exact Fin.ext rfl
  | ⟨1, _⟩ => exact Fin.ext rfl

/-- The fold of `max` from any starting value over the indices lying over row `f` is the fold over that row's
    1024 entries. -/
theorem fold_row (h : S1024x1024.Reduces [1] S1024) (v : FVec Ideal S1024x1024 .f32) (z : EReal) (f : Fin 1024) :
    (Finset.univ : Finset (Fin (S1024x1024.size 1))).fold max z (v ∘ h.lift (ix1 f))
      = (Finset.univ : Finset (Fin 1024)).fold max z (fun g' => v (ix2 f g')) :=
  congrArg (fun r => (Finset.univ : Finset (Fin 1024)).fold max z r) (funext fun k => congrArg v (lift_row h f k))

/-- The row maxima as the kernel takes them — the lane reduction by `max` from −∞, then `max` against a −∞ splat —
    read at row `f`: the specification's maximum of that row. The −∞ word is carried as a word throughout and never
    evaluated: both sides name the same one. -/
theorem rowMax_apply (v : FVec Ideal S1024x1024 .f32) (hφ : FKind.Formats .f32)
    (hacc : (0xFF800000#32 : BitVec 32) = FKind.maximumf.neutral .f32 hφ) (f : Fin 1024) :
    maximumf (broadcast S1024 (FloatOps.ofBits (F := Ideal) .f32 0xFF800000#32))
        (multiReduction .maximumf [1] S1024 v 0xFF800000#32 reduces_S1024x1024_S1024 hφ hacc) (ix1 f)
      = Cert.Spec.rowMax (fun g' => v (ix2 f g')) := by
  refine (maximumf_apply _ _ (ix1 f)).trans ?_
  unfold Cert.Spec.rowMax Cert.Spec.negInf
  refine congrArg₂ max ?_ ?_
  · exact (broadcast_apply _ (ix1 f)).trans (Ideal.ofBits_def _)
  · refine (Ideal.multiReduction_maximumf_single v _ reduces_S1024x1024_S1024 hφ hacc (ix1 f)).trans ?_
    refine (fold_row _ v _ f).trans ?_
    exact congrArg (fun z => (Finset.univ : Finset (Fin 1024)).fold max z (fun g' => v (ix2 f g'))) (Ideal.ofBits_def _)

/-- A lane sum from the zero word read at row `f`: the sum of that row's 1024 entries. -/
theorem rowSum_apply (w : FVec Ideal S1024x1024 .f32) (hφ : FKind.Formats .f32)
    (hacc : (0x00000000#32 : BitVec 32) = FKind.add.neutral .f32 hφ) (f : Fin 1024) :
    multiReduction .add [1] S1024 w 0x00000000#32 reduces_S1024x1024_S1024 hφ hacc (ix1 f)
      = ∑ g' : Fin 1024, w (ix2 f g') := by
  refine (Ideal.multiReduction_add_single w _ reduces_S1024x1024_S1024 hφ hacc (ix1 f)).trans ?_
  show ∑ k : Fin 1024, w (reduces_S1024x1024_S1024.lift (ix1 f) k) = _
  exact Finset.sum_congr rfl fun k _ => congrArg w (lift_row _ f k)

/-- The softmax's arithmetic below the row maxima, for any vector `M` of one value per row in their place: the
    exponential of the entry's distance below its row's value, over the row's sum of those exponentials. -/
theorem softmax_core (v : FVec Ideal S1024x1024 .f32) (M : FVec Ideal S1024 .f32) (hφ : FKind.Formats .f32)
    (hacc : (0x00000000#32 : BitVec 32) = FKind.add.neutral .f32 hφ) (f g : Fin 1024) :
    divf
        (exp (subf v (broadcastTo S1024x1024 (shapeCast S1024x1 M shapeCasts_S1024_S1024x1) broadcasts_S1024x1_S1024x1024)))
        (broadcastTo S1024x1024
          (shapeCast S1024x1
            (multiReduction .add [1] S1024
              (exp (subf v (broadcastTo S1024x1024 (shapeCast S1024x1 M shapeCasts_S1024_S1024x1) broadcasts_S1024x1_S1024x1024)))
              0x00000000#32 reduces_S1024x1024_S1024 hφ hacc)
            shapeCasts_S1024_S1024x1)
          broadcasts_S1024x1_S1024x1024)
        (ix2 f g)
      = Ideal.div (Ideal.exp (v (ix2 f g) - M (ix1 f))) (∑ g' : Fin 1024, Ideal.exp (v (ix2 f g') - M (ix1 f))) := by
  have hE : ∀ g' : Fin 1024,
      exp (subf v (broadcastTo S1024x1024 (shapeCast S1024x1 M shapeCasts_S1024_S1024x1) broadcasts_S1024x1_S1024x1024)) (ix2 f g')
        = Ideal.exp (v (ix2 f g') - M (ix1 f)) := fun g' =>
    congrArg (fun t => Ideal.exp (v (ix2 f g') - t)) (col_apply M f g')
  refine (divf_apply _ _ (ix2 f g)).trans ?_
  refine congrArg₂ Ideal.div (hE g) ?_
  refine (col_apply _ f g).trans ?_
  refine (rowSum_apply _ hφ hacc f).trans ?_
  exact Finset.sum_congr rfl fun g' _ => hE g'

/-- The whole row softmax as the kernel computes it, read at `(f, g)`: the specification's softmax of row `f` at `g`. -/
theorem softmax_full (v : FVec Ideal S1024x1024 .f32) (hφ : FKind.Formats .f32)
    (haccM : (0xFF800000#32 : BitVec 32) = FKind.maximumf.neutral .f32 hφ)
    (haccS : (0x00000000#32 : BitVec 32) = FKind.add.neutral .f32 hφ) (f g : Fin 1024) :
    divf
        (exp (subf v (broadcastTo S1024x1024
          (shapeCast S1024x1
            (maximumf (broadcast S1024 (FloatOps.ofBits (F := Ideal) .f32 0xFF800000#32))
              (multiReduction .maximumf [1] S1024 v 0xFF800000#32 reduces_S1024x1024_S1024 hφ haccM))
            shapeCasts_S1024_S1024x1)
          broadcasts_S1024x1_S1024x1024)))
        (broadcastTo S1024x1024
          (shapeCast S1024x1
            (multiReduction .add [1] S1024
              (exp (subf v (broadcastTo S1024x1024
                (shapeCast S1024x1
                  (maximumf (broadcast S1024 (FloatOps.ofBits (F := Ideal) .f32 0xFF800000#32))
                    (multiReduction .maximumf [1] S1024 v 0xFF800000#32 reduces_S1024x1024_S1024 hφ haccM))
                  shapeCasts_S1024_S1024x1)
                broadcasts_S1024x1_S1024x1024)))
              0x00000000#32 reduces_S1024x1024_S1024 hφ haccS)
            shapeCasts_S1024_S1024x1)
          broadcasts_S1024x1_S1024x1024)
        (ix2 f g)
      = Cert.Spec.softmaxRow (fun g' => v (ix2 f g')) g := by
  refine (softmax_core v _ hφ haccS f g).trans ?_
  unfold Cert.Spec.softmaxRow
  have hM := rowMax_apply v hφ haccM f
  refine congrArg₂ Ideal.div (congrArg (fun t => Ideal.exp (v (ix2 f g) - t)) hM) ?_
  exact Finset.sum_congr rfl fun g' _ => congrArg (fun t => Ideal.exp (v (ix2 f g') - t)) hM

/-- THE SOFTMAX PAYLOAD AT `(0, f, g)`: the specification's softmax of row `f` of the accumulated logits at `g`. The
    leading unit axis and the narrowing to bf16 change nothing at the extended reals. -/
theorem pay3_apply (v29 : Vec Ideal S1024x1024 .f32) (f g : Fin 1024) :
    k0_pay3 v29 (ix3 (0 : Fin 1) f g) = Cert.Spec.softmaxRow (fun g' => v29 (ix2 f g')) g := by
  unfold k0_pay3
  refine (shapeCast_ab_1ab_apply _ _ (0 : Fin 1) f g).trans ?_
  refine (truncf_apply (ψ := .bf16) _ bitsLt_bf16_f32 (ix2 f g)).trans ?_
  exact softmax_full v29 _ _ _ f g

end Cert.KernelIdeal.Pay

end
-- ==== Proof.TileSum.lean ====
import Mathlib.Algebra.BigOperators.Fin
import Mathlib.Logic.Equiv.Fin.Basic
import Mathlib.Data.EReal.Basic

/-! Two regroupings of a finite sum in a commutative additive monoid (the extended reals are one): a sum over
    4096 consecutive positions as eight consecutive tiles of 512, and a running total over the eight tiles,
    started from zero and extended one tile at a time, as the sum over the tiles. Neither uses more than
    associativity and commutativity of addition. -/

namespace Cert.TileSum

variable {M : Type*} [AddCommMonoid M]

/-- Position `s` of 4096 is position `r` of tile `t` for exactly one pair `(t, r)`, namely `s = 512·t + r`:
    the sum over the positions is the sum over the tiles of each tile's sum. -/
theorem sum_tiles_monoid (F : Fin 4096 → M) :
    ∑ s : Fin 4096, F s = ∑ t : Fin 8, ∑ r : Fin 512, F ⟨512 * t.val + r.val, by omega⟩ := by
  have e : ∑ p : Fin 8 × Fin 512, F ⟨512 * p.1.val + p.2.val, by omega⟩ = ∑ s : Fin 4096, F s :=
    Fintype.sum_equiv (finProdFinEquiv (m := 8) (n := 512)) _ F (fun p => congrArg F (Fin.ext (by
      show 512 * p.1.val + p.2.val = p.2.val + 512 * p.1.val
      omega)))
  rw [← e, Fintype.sum_prod_type]

/-- The same over the extended reals. -/
theorem sum_tiles (F : Fin 4096 → EReal) :
    ∑ s : Fin 4096, F s = ∑ t : Fin 8, ∑ r : Fin 512, F ⟨512 * t.val + r.val, by omega⟩ :=
  sum_tiles_monoid F

/-- The left fold of the eight tile totals from zero is their sum. -/
theorem fold_tiles_monoid (T : Fin 8 → M) :
    0 + T 0 + T 1 + T 2 + T 3 + T 4 + T 5 + T 6 + T 7 = ∑ t : Fin 8, T t := by
  rw [Fin.sum_univ_eight, zero_add]

/-- The same over the extended reals. -/
theorem fold_tiles (T : Fin 8 → EReal) :
    0 + T 0 + T 1 + T 2 + T 3 + T 4 + T 5 + T 6 + T 7 = ∑ t : Fin 8, T t :=
  fold_tiles_monoid T

/-- A running total that starts at the first tile's total and adds the next tile's total at each step is, after
    the eighth tile, the sum over the tiles. -/
theorem fold_tiles_rec (T : Fin 8 → EReal) (acc : ℕ → EReal) (h0 : acc 0 = T 0)
    (hs : ∀ (n : ℕ) (h : n + 1 < 8), acc (n + 1) = acc n + T ⟨n + 1, h⟩) : acc 7 = ∑ t : Fin 8, T t := by
  rw [hs 6 (by omega), hs 5 (by omega), hs 4 (by omega), hs 3 (by omega), hs 2 (by omega), hs 1 (by omega),
    hs 0 (by omega), h0, Fin.sum_univ_eight]
  rfl

/-- The same when the running total starts at zero plus the first tile's total. -/
theorem fold_tiles_rec_zero (T : Fin 8 → EReal) (acc : ℕ → EReal) (h0 : acc 0 = 0 + T 0)
    (hs : ∀ (n : ℕ) (h : n + 1 < 8), acc (n + 1) = acc n + T ⟨n + 1, h⟩) : acc 7 = ∑ t : Fin 8, T t :=
  fold_tiles_rec T acc (h0.trans (zero_add _)) hs

end Cert.TileSum
-- ==== Proof.AccSum.lean ====
import proofs.«123227_j30734785970848_2_alg».proof.Proof.Region0Value
import proofs.«123227_j30734785970848_2_alg».proof.Proof.Region0Blocks
import proofs.«123227_j30734785970848_2_alg».proof.Proof.PaySoftmax
import proofs.«123227_j30734785970848_2_alg».proof.Proof.TileSum
import Idealize.ShloMosaic.Lib.ValueIdx

/-! The first kernel region's accumulator as a sum, and its output array as the softmax of that sum, on the extended
    reals.

    The region's grid is 8 batches × 8 sequence tiles of 512 rows. At a batch's first tile the accumulator restarts from
    the zero block; every point adds its tile's contribution — the sum over the tile's 512 rows of the product of the
    two projections of the row — onto it. So after a batch's last tile the accumulator is the left fold from zero of the
    eight tile totals, which is the sum over all 4096 rows: the logits. The output array holds the row softmax of that. -/

set_option maxRecDepth 16384

noncomputable section

namespace Cert.KernelIdeal.Fr

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The projections and the logits over the arrays as the region finds them -/

/-- Row `(b, s)` of the input projected onto feature `o` by the matrix as the region finds it (stored
    input-feature-major) and the bias. -/
def projV (A : S8x4096x1024.Idx → EReal) (M : S1024x1024.Idx → EReal) (B : S1024.Idx → EReal)
    (b : Fin 8) (s : Fin 4096) (o : Fin 1024) : EReal :=
  ∑ j : Fin 1024, A (ix3 b s j) * M (ix2 j o) + B (ix1 o)

/-- The two projections contracted over the whole sequence axis. -/
def logitsV (A : S8x4096x1024.Idx → EReal) (Mq : S1024x1024.Idx → EReal) (Bq : S1024.Idx → EReal)
    (Mk : S1024x1024.Idx → EReal) (Bk : S1024.Idx → EReal) (b : Fin 8) (f g : Fin 1024) : EReal :=
  ∑ s : Fin 4096, projV A Mq Bq b s f * projV A Mk Bk b s g

/-! ## The body's two terms at an entry: the laws this module takes as hypotheses -/

/-- The block the accumulator restarts from is zero everywhere. -/
def Pay1Law : Prop := ∀ f g : Fin 1024, k0_pay1 (F := Ideal) (ix2 f g) = 0

/-- One point's step read at entry `(f, g)`: the accumulator there plus the sum over the tile's 512 rows of the product
    of the row's two projections. -/
def Pay2Law : Prop :=
  ∀ (v3 : Vec Ideal S1x512x1024 .f32) (v6 v8 : Vec Ideal S1024x1024 .bf16) (v11 v16 : Vec Ideal S1024 .f32)
    (v21 : Vec Ideal S1024x1024 .f32) (f g : Fin 1024),
    k0_pay2 v3 v6 v8 v11 v16 v21 (ix2 f g)
      = v21 (ix2 f g) + ∑ s : Fin 512, (∑ j : Fin 1024, v3 (ix3 (0 : Fin 1) s j) * v6 (ix2 j f) + v11 (ix1 f))
          * (∑ j : Fin 1024, v3 (ix3 (0 : Fin 1) s j) * v8 (ix2 j g) + v16 (ix1 g))

/-! ## One point's step -/

/-- Over variables: when the five input blocks are tile `q` of batch `b` of the input and the whole matrices and biases,
    the step adds the tile's total onto the accumulator. -/
theorem step_point (hpay2 : Pay2Law) (A : S8x4096x1024.Idx → EReal) (Mq : S1024x1024.Idx → EReal) (Bq : S1024.Idx → EReal)
    (Mk : S1024x1024.Idx → EReal) (Bk : S1024.Idx → EReal)
    (x0 : Vec Ideal S1x512x1024 .f32) (x1 x3 : Vec Ideal S1024x1024 .bf16) (x2 x4 : Vec Ideal S1024 .f32)
    (acc : Vec Ideal S1024x1024 .f32) (b q : Fin 8) (f g : Fin 1024)
    (h0 : ∀ (r : Fin 512) (j : Fin 1024), x0 (ix3 (0 : Fin 1) r j) = A (ix3 b (⟨512 * q.val + r.val, by omega⟩ : Fin 4096) j))
    (h1 : ∀ j o : Fin 1024, x1 (ix2 j o) = Mq (ix2 j o)) (h2 : ∀ o : Fin 1024, x2 (ix1 o) = Bq (ix1 o))
    (h3 : ∀ j o : Fin 1024, x3 (ix2 j o) = Mk (ix2 j o)) (h4 : ∀ o : Fin 1024, x4 (ix1 o) = Bk (ix1 o)) :
    k0_pay2 x0 x1 x3 x2 x4 acc (ix2 f g)
      = acc (ix2 f g) + ∑ r : Fin 512, projV A Mq Bq b (⟨512 * q.val + r.val, by omega⟩ : Fin 4096) f
          * projV A Mk Bk b (⟨512 * q.val + r.val, by omega⟩ : Fin 4096) g := by
  rw [hpay2]
  simp only [h0, h1, h2, h3, h4]
  rfl

/-- At point `t` of batch `b`, tile `q`. -/
theorem stepAt_apply (hpay2 : Pay2Law) (c : Dev nD) (t : Fin cfg0.N) (acc : Vec Ideal S1024x1024 .f32) (b q : Fin 8)
    (hb : t.val / 8 = b.val) (hq : t.val % 8 = q.val) (f g : Fin 1024) :
    stepAt V c t acc (ix2 f g)
      = acc (ix2 f g) + ∑ r : Fin 512, projV (V c main_arg0) (V c main_v1) (V c main_arg2) b (⟨512 * q.val + r.val, by omega⟩ : Fin 4096) f
          * projV (V c main_arg0) (V c main_v3) (V c main_arg4) b (⟨512 * q.val + r.val, by omega⟩ : Fin 4096) g := by
  have hb' : t.val / 8 < 8 := hb ▸ b.isLt
  have hq' : t.val % 8 < 8 := hq ▸ q.isLt
  obtain rfl : b = ⟨t.val / 8, hb'⟩ := Fin.ext hb.symm
  obtain rfl : q = ⟨t.val % 8, hq'⟩ := Fin.ext hq.symm
  unfold stepAt
  exact step_point hpay2 (V c main_arg0) (V c main_v1) (V c main_arg2) (V c main_v3) (V c main_arg4)
    (iblk0 V c 0 t) (iblk0 V c 1 t) (iblk0 V c 3 t) (iblk0 V c 2 t) (iblk0 V c 4 t) acc _ _ f g
    (fun r j => iblk0_0_apply V c t r j hb' (by have := r.isLt; omega))
    (fun j o => iblk0_1_apply V c t j o) (fun o => iblk0_2_apply V c t o)
    (fun j o => iblk0_3_apply V c t j o) (fun o => iblk0_4_apply V c t o)

/-! ## The accumulator chain, one equation per kind of position -/

theorem accAt_restart (c : Dev nD) (n : ℕ) (h : n < cfg0.N) (h0 : n % 8 = 0) :
    accAt V c n h = stepAt V c ⟨n, h⟩ (k0_pay1 (F := Ideal)) := by
  cases n with
  | zero => rw [accAt]
  | succ n => rw [accAt, if_pos h0]

theorem accAt_step (c : Dev nD) (n : ℕ) (h : n + 1 < cfg0.N) (h0 : ¬(n + 1) % 8 = 0) :
    accAt V c (n + 1) h = stepAt V c ⟨n + 1, h⟩ (accAt V c n (Nat.lt_of_succ_lt h)) := by
  rw [accAt, if_neg h0]

theorem accAtN_restart (c : Dev nD) (n : ℕ) (h : n < cfg0.N) (h0 : n % 8 = 0) :
    accAtN V c n = stepAt V c ⟨n, h⟩ (k0_pay1 (F := Ideal)) := by
  unfold accAtN
  rw [dif_pos h, accAt_restart V c n h h0]

theorem accAtN_step (c : Dev nD) (n : ℕ) (h : n + 1 < cfg0.N) (h0 : ¬(n + 1) % 8 = 0) :
    accAtN V c (n + 1) = stepAt V c ⟨n + 1, h⟩ (accAtN V c n) := by
  unfold accAtN
  rw [dif_pos h, dif_pos (Nat.lt_of_succ_lt h), accAt_step V c n h h0]

/-! ## After a batch's last tile: the logits -/

/-- The accumulator after the last tile of batch `b`, at `(f, g)`: the two projections contracted over all 4096 rows. -/
theorem acc_last (hpay1 : Pay1Law) (hpay2 : Pay2Law) (c : Dev nD) (b : Fin 8) (f g : Fin 1024) :
    (accAtN (F := Ideal) V c (8 * b.val + 7) : S1024x1024.Idx → EReal) (ix2 f g)
      = logitsV (V c main_arg0) (V c main_v1) (V c main_arg2) (V c main_v3) (V c main_arg4) b f g := by
  have hN : cfg0.N = 64 := N_0
  have hb : b.val < 8 := b.isLt
  -- the product of the two projections of row `s`; a tile's total; the accumulator's entry after `s` more points
  let P : Fin 4096 → EReal := fun s => projV (V c main_arg0) (V c main_v1) (V c main_arg2) b s f * projV (V c main_arg0) (V c main_v3) (V c main_arg4) b s g
  let T : Fin 8 → EReal := fun q => ∑ r : Fin 512, P ⟨512 * q.val + r.val, by omega⟩
  let acc : ℕ → EReal := fun s => (accAtN (F := Ideal) V c (8 * b.val + s) : S1024x1024.Idx → EReal) (ix2 f g)
  have h0 : acc 0 = 0 + T 0 := by
    have hlt : 8 * b.val + 0 < cfg0.N := by omega
    show (accAtN (F := Ideal) V c (8 * b.val + 0) : S1024x1024.Idx → EReal) (ix2 f g) = 0 + T 0
    refine (congrFun (accAtN_restart V c (8 * b.val + 0) hlt (by omega)) (ix2 f g)).trans ?_
    refine (stepAt_apply V hpay2 c ⟨8 * b.val + 0, hlt⟩ (k0_pay1 (F := Ideal)) b 0
      (by show (8 * b.val + 0) / 8 = b.val; omega) (by show (8 * b.val + 0) % 8 = 0; omega) f g).trans ?_
    rw [hpay1]
  have hs : ∀ (n : ℕ) (h : n + 1 < 8), acc (n + 1) = acc n + T ⟨n + 1, h⟩ := by
    intro n h
    have hlt : 8 * b.val + n + 1 < cfg0.N := by omega
    show (accAtN (F := Ideal) V c (8 * b.val + n + 1) : S1024x1024.Idx → EReal) (ix2 f g) = acc n + T ⟨n + 1, h⟩
    refine (congrFun (accAtN_step V c (8 * b.val + n) hlt (by omega)) (ix2 f g)).trans ?_
    refine (stepAt_apply V hpay2 c ⟨8 * b.val + n + 1, hlt⟩ (accAtN (F := Ideal) V c (8 * b.val + n)) b ⟨n + 1, h⟩
      (by show (8 * b.val + n + 1) / 8 = b.val; omega) (by show (8 * b.val + n + 1) % 8 = n + 1; omega) f g).trans ?_
    rfl
  have key : acc 7 = ∑ q : Fin 8, T q := Cert.TileSum.fold_tiles_rec_zero T acc h0 hs
  exact key.trans (Cert.TileSum.sum_tiles P).symm

/-! ## The output array: the softmax of the logits -/

/-- The region's output array read at `(b, f, g)`: the softmax of row `(b, f)` of the logits, at entry `g`. -/
theorem weights_apply (hpay1 : Pay1Law) (hpay2 : Pay2Law) (c : Dev nD) (b : Fin 8) (f g : Fin 1024) :
    (G5 (F := Ideal) V c : S8x1024x1024.Idx → EReal) (ix3 b f g)
      = Cert.Spec.softmaxRow (logitsV (V c main_arg0) (V c main_v1) (V c main_arg2) (V c main_v3) (V c main_arg4) b f) g := by
  have ej : inBlk5 (ix3 b f g) = ix3 (0 : Fin 1) f g :=
    funext fun a => by match a with | ⟨0, _⟩ => rfl | ⟨1, _⟩ => rfl | ⟨2, _⟩ => rfl
  have hrow : (fun g' : Fin 1024 => (accAtN (F := Ideal) V c (8 * b.val + 7) : S1024x1024.Idx → EReal) (ix2 f g'))
      = logitsV (V c main_arg0) (V c main_v1) (V c main_arg2) (V c main_v3) (V c main_arg4) b f := funext fun g' => acc_last V hpay1 hpay2 c b f g'
  unfold G5
  show k0_pay3 (accAtN (F := Ideal) V c (8 * b.val + 7)) (inBlk5 (ix3 b f g)) = _
  rw [ej, Pay.pay3_apply, hrow]

end Cert.KernelIdeal.Fr

end
-- ==== Proof.Region1Value.lean ====
import proofs.«123227_j30734785970848_2_alg».proof.Proof.Region1
import Idealize.ShloMosaic.Lib.Pipeline.Value
import Idealize.ShloMosaic.Lib.ValueIdx

/-! The second kernel region's result array after all its points, at any index, on the extended reals.

    The region's grid is 8 × 4; point `(b, q)` writes rows `1024·q … 1024·q + 1023` of batch `b` of the result. What a
    point writes back is the body's term of its four input blocks; the input blocks are the rows of the arrays that
    the output block's position names (the printed index maps agree where they must: decided once over the 32 points);
    so each point writes its block of ONE whole-array function, and the 32 blocks cover the array. -/

set_option maxRecDepth 16384

noncomputable section

namespace Cert.KernelIdeal.Fr

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The whole-array function -/

/-- The result at `(b, s, h)` as a function of the four arrays the region reads: the input row contracted with
    batch `b`'s weight matrix, the outcome contracted with the value projection, plus the bias. -/
def outAt (A0 : S8x4096x1024.Idx → EReal) (A1 : S8x1024x1024.Idx → EReal) (A2 : S1024x1024.Idx → EReal) (A3 : S1024.Idx → EReal)
    (b : Fin 8) (s : Fin 4096) (h : Fin 1024) : EReal :=
  ∑ g : Fin 1024, (∑ f : Fin 1024, A0 (ix3 b s f) * A1 (ix3 b f g)) * A2 (ix2 g h) + A3 (ix1 h)

/-- The same as one array. -/
def G1 (A0 : S8x4096x1024.Idx → EReal) (A1 : S8x1024x1024.Idx → EReal) (A2 : S1024x1024.Idx → EReal) (A3 : S1024.Idx → EReal) :
    S8x4096x1024.Idx → EReal := fun i => outAt A0 A1 A2 A3 (i 0) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The body's term at an entry: the law this module takes as a hypothesis -/

/-- The body's term read at entry `(0, s, h)` of its block: the first block's row `s` contracted with the second block,
    the outcome contracted with the third, plus the fourth at `h`. It holds of the body's operations read at an index
    (two matrix products into zero accumulators and a bias spread over the rows); here it is a hypothesis. -/
def PayLaw : Prop :=
  ∀ (v0 : Vec Ideal S1x1024x1024 .f32) (v3 : Vec Ideal S1x1024x1024 .bf16) (v7 : Vec Ideal S1024x1024 .bf16) (v10 : Vec Ideal S1024 .f32)
    (s h : Fin 1024),
    k1_pay1 v0 v3 v7 v10 (ix3 (0 : Fin 1) s h)
      = ∑ g : Fin 1024, (∑ f : Fin 1024, v0 (ix3 (0 : Fin 1) s f) * v3 (ix3 (0 : Fin 1) f g)) * v7 (ix2 g h) + v10 (ix1 h)

/-! ## One point, over variables -/

/-- The body's term at entry `(0, s, h)` of its block, when its four input blocks are the rows of the arrays that the
    array index `i` names: the whole-array function at `i`. -/
theorem point_eq (hpay : PayLaw) (A0 : S8x4096x1024.Idx → EReal) (A1 : S8x1024x1024.Idx → EReal) (A2 : S1024x1024.Idx → EReal) (A3 : S1024.Idx → EReal)
    (x0 : Vec Ideal S1x1024x1024 .f32) (x1 : Vec Ideal S1x1024x1024 .bf16) (x2 : Vec Ideal S1024x1024 .bf16) (x3 : Vec Ideal S1024 .f32)
    (b : Fin 8) (s' : Fin 4096) (h' : Fin 1024) (s h : Fin 1024)
    (h0 : ∀ f : Fin 1024, x0 (ix3 (0 : Fin 1) s f) = A0 (ix3 b s' f))
    (h1 : ∀ f g : Fin 1024, x1 (ix3 (0 : Fin 1) f g) = A1 (ix3 b f g))
    (h2 : ∀ g : Fin 1024, x2 (ix2 g h) = A2 (ix2 g h'))
    (h3 : x3 (ix1 h) = A3 (ix1 h')) :
    k1_pay1 x0 x1 x2 x3 (ix3 (0 : Fin 1) s h) = outAt A0 A1 A2 A3 b s' h' := by
  rw [hpay]
  simp only [h0, h1, h2, h3]
  rfl

/-! ## The printed index maps, decided over the grid -/

theorem idx_facts1 : ∀ t : Fin cfg1.N,
    win1_0.index t (0 : Fin 3) = win1_4.index t (0 : Fin 3) ∧ win1_0.index t (1 : Fin 3) = win1_4.index t (1 : Fin 3) ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0
    ∧ win1_4.index t (0 : Fin 3) ≤ 7 ∧ win1_4.index t (1 : Fin 3) ≤ 3 ∧ win1_4.index t (2 : Fin 3) = 0 :=
  (by decide +kernel : ∀ t : Fin grid1.N, _)

/-- Every block of the result is some point's. -/
theorem idx_onto1 : ∀ (q0 : Fin 8) (q1 : Fin 4), ∃ t : Fin cfg1.N, win1_4.index t = ![q0.val, q1.val, 0] :=
  (by decide +kernel : ∀ (q0 : Fin 8) (q1 : Fin 4), ∃ t : Fin grid1.N, win1_4.index t = ![q0.val, q1.val, 0])

/-! ## What a point writes back -/

/-- The body's term of the four input blocks at point `t`, at entry `j` of the block, is the whole-array function at the
    array index the output's block puts `j` at. -/
theorem flushed_point (hpay : PayLaw) (c : Dev nD) (t : Fin cfg1.N) (j : S1x1024x1024.Idx) :
    k1_pay1 (iblk1 V c 0 t) (iblk1 V c 1 t) (iblk1 V c 2 t) (iblk1 V c 3 t) j
      = G1 (V c main_arg0) (V c main_v6) (V c main_v5) (V c main_arg6) (((cfg1.win 4).blk t).view.emb j) := by
  obtain ⟨z, s, h, rfl⟩ : ∃ (z : Fin 1) (s h : Fin 1024), j = ix3 z s h := ⟨j 0, j 1, j 2, eq_ix3 j⟩
  obtain rfl : z = 0 := Subsingleton.elim _ _
  obtain ⟨e00, e01, e02, e10, e11, e12, e20, e21, e30, e40, e41, e42⟩ := idx_facts1 t
  refine point_eq hpay (V c main_arg0) (V c main_v6) (V c main_v5) (V c main_arg6) (iblk1 V c 0 t) (iblk1 V c 1 t) (iblk1 V c 2 t) (iblk1 V c 3 t)
    ((((cfg1.win 4).blk t).view.emb (ix3 (0 : Fin 1) s h)) 0) ((((cfg1.win 4).blk t).view.emb (ix3 (0 : Fin 1) s h)) 1)
    ((((cfg1.win 4).blk t).view.emb (ix3 (0 : Fin 1) s h)) 2) s h ?_ ?_ ?_ ?_
  · intro f
    show V c main_arg0 (((cfg1.win 0).blk t).view.emb (ix3 (0 : Fin 1) s f)) = V c main_arg0 _
    refine congrArg (V c main_arg0) (funext fun a => Fin.ext ?_)
    match a with
    | ⟨0, _⟩ => show win1_0.index t (0 : Fin 3) * 1 + 1 * 0 = win1_4.index t (0 : Fin 3) * 1 + 1 * 0; omega
    | ⟨1, _⟩ => show win1_0.index t (1 : Fin 3) * 1024 + 1 * s.val = win1_4.index t (1 : Fin 3) * 1024 + 1 * s.val; omega
    | ⟨2, _⟩ => show win1_0.index t (2 : Fin 3) * 1024 + 1 * f.val = f.val; omega
  · intro f g
    show V c main_v6 (((cfg1.win 1).blk t).view.emb (ix3 (0 : Fin 1) f g)) = V c main_v6 _
    refine congrArg (V c main_v6) (funext fun a => Fin.ext ?_)
    match a with
    | ⟨0, _⟩ => show win1_1.index t (0 : Fin 3) * 1 + 1 * 0 = win1_4.index t (0 : Fin 3) * 1 + 1 * 0; omega
    | ⟨1, _⟩ => show win1_1.index t (1 : Fin 3) * 1024 + 1 * f.val = f.val; omega
    | ⟨2, _⟩ => show win1_1.index t (2 : Fin 3) * 1024 + 1 * g.val = g.val; omega
  · intro g
    show V c main_v5 (((cfg1.win 2).blk t).view.emb (ix2 g h)) = V c main_v5 _
    refine congrArg (V c main_v5) (funext fun a => Fin.ext ?_)
    match a with
    | ⟨0, _⟩ => show win1_2.index t (0 : Fin 2) * 1024 + 1 * g.val = g.val; omega
    | ⟨1, _⟩ => show win1_2.index t (1 : Fin 2) * 1024 + 1 * h.val = win1_4.index t (2 : Fin 3) * 1024 + 1 * h.val; omega
  · show V c main_arg6 (((cfg1.win 3).blk t).view.emb (ix1 h)) = V c main_arg6 _
    refine congrArg (V c main_arg6) (funext fun a => Fin.ext ?_)
    match a with
    | ⟨0, _⟩ => show win1_3.index t (0 : Fin 1) * 1024 + 1 * h.val = win1_4.index t (2 : Fin 3) * 1024 + 1 * h.val; omega

/-- WHAT POINT `t` WRITES BACK is block `t` of the whole-array function of the arrays as the region finds them. -/
theorem flushed1_eq (hpay : PayLaw) (c : Dev nD) (t : Fin cfg1.N) :
    (dat1 (F := Ideal) V c).flushed 4 t
      = ((cfg1.win 4).blk t).view.read (Elt Ideal) (G1 (V c main_arg0) (V c main_v6) (V c main_v5) (V c main_arg6)) := by
  show (cfg1.win 4).cut (grid1.coords t) ((dat1 V c).after 4 t) = _
  rw [after1_4]
  unfold out1_4
  rw [View.canon_unit_zero hz3]
  simp only [View.ld_unit_zero (S := S1x1024x1024) hz3, View.ld_unit_zero (S := S1024x1024) hz2, View.ld_unit_zero (S := S1024) hz1]
  funext j
  exact flushed_point V hpay c t j

/-! ## The blocks cover the array -/

/-- An index of the array is in point `t`'s block iff each coordinate is in the block's range on its axis. -/
theorem mem_blk1 (t : Fin cfg1.N) (i : S8x4096x1024.Idx) :
    i ∈ ((cfg1.win 4).blk t).view.set ↔ ∀ a : Fin 3, win1_4.index t a * S1x1024x1024.size a ≤ (i a).val
      ∧ (i a).val < win1_4.index t a * S1x1024x1024.size a + S1x1024x1024.size a := by
  show i ∈ ((View.whole main_v7).slice (win1_4.rect t)).set ↔ _
  rw [View.set_slice_whole, Rect.mem_set_unit]
  exact Iff.rfl

/-- Index `(b, s, h)` is in the block of the point whose block index is `(b, s / 1024, 0)`. -/
theorem cover1 (i : S8x4096x1024.Idx) :
    ∃ t : Fin cfg1.N, (cfg1.win 4).flush t = true ∧ i ∈ ((cfg1.win 4).blk t).view.set := by
  have hi0 : (i 0).val < 8 := (i 0).isLt
  have hi1 : (i 1).val < 4096 := (i 1).isLt
  have hi2 : (i 2).val < 1024 := (i 2).isLt
  obtain ⟨t, ht⟩ := idx_onto1 ⟨(i 0).val, hi0⟩ ⟨(i 1).val / 1024, by omega⟩
  have q0 : win1_4.index t (0 : Fin 3) = (i 0).val := congrFun ht 0
  have q1 : win1_4.index t (1 : Fin 3) = (i 1).val / 1024 := congrFun ht 1
  have q2 : win1_4.index t (2 : Fin 3) = 0 := congrFun ht 2
  refine ⟨t, flush1_4 t, ?_⟩
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 1024 ≤ (i 2).val ∧ (i 2).val < win1_4.index t (2 : Fin 3) * 1024 + 1024; omega

/-! ## The array after the region -/

/-- THE RESULT ARRAY after all the points is the whole-array function of the arrays as the region finds them. -/
theorem final1 (hpay : PayLaw) (c : Dev nD) :
    (dat1 (F := Ideal) V c).arrAt 4 cfg1.N = G1 (V c main_arg0) (V c main_v6) (V c main_v5) (V c main_arg6) :=
  (dat1 V c).arrAt_eq_of_cover 4 (G1 (V c main_arg0) (V c main_v6) (V c main_v5) (V c main_arg6))
    (fun t _ => flushed1_eq V hpay c t) cover1

/-- The result array read at `(b, s, h)`: the input row contracted with batch `b`'s weights, that contracted with the value
    projection, plus the bias (`outAt` is that double sum, by definition). -/
theorem out_apply (hpay : PayLaw) (c : Dev nD) (b : Fin 8) (s : Fin 4096) (h : Fin 1024) :
    ((dat1 (F := Ideal) V c).arrAt 4 cfg1.N : S8x4096x1024.Idx → EReal) (ix3 b s h)
      = outAt (V c main_arg0) (V c main_v6) (V c main_v5) (V c main_arg6) b s h := by
  rw [final1 V hpay]
  rfl

/-- `outAt` written out. -/
theorem outAt_def (A0 : S8x4096x1024.Idx → EReal) (A1 : S8x1024x1024.Idx → EReal) (A2 : S1024x1024.Idx → EReal) (A3 : S1024.Idx → EReal)
    (b : Fin 8) (s : Fin 4096) (h : Fin 1024) :
    outAt A0 A1 A2 A3 b s h = ∑ g : Fin 1024, (∑ f : Fin 1024, A0 (ix3 b s f) * A1 (ix3 b f g)) * A2 (ix2 g h) + A3 (ix1 h) := rfl

end Cert.KernelIdeal.Fr

end
-- ==== Proof.Bridge.lean ====
import proofs.«123227_j30734785970848_2_alg».proof.Proof.AccSum
import proofs.«123227_j30734785970848_2_alg».proof.Proof.Region1Value
import proofs.«123227_j30734785970848_2_alg».proof.Proof.Spec

/-! From the arrays as the kernel's regions find them to the specification over the arguments.

    The regions read each weight matrix transposed. A contraction against the transposed matrix at `(j, o)` is the
    contraction against the matrix at `(o, j)`, term by term; so the projections, the logits, and the result computed
    from the transposed matrices and from the softmax weights of those logits are the specification's. Pure algebra
    over variables: no program. -/

noncomputable section

namespace Cert.KernelIdeal.Fr

open Idealize.ShloMosaic Idealize.ShloMosaic.ValueIdx
open Cert.KernelIdeal

/-- A projection through the transposed matrix is the specification's projection. -/
theorem projV_eq (x : S8x4096x1024.Idx → EReal) (W WT : S1024x1024.Idx → EReal) (bias : S1024.Idx → EReal)
    (hT : ∀ j o : Fin 1024, WT (ix2 j o) = W (ix2 o j)) (b : Fin 8) (s : Fin 4096) (o : Fin 1024) :
    projV x WT bias b s o = Cert.Spec.proj x W bias b s o := by
  unfold projV Cert.Spec.proj
  simp only [hT]

/-- The logits through the transposed matrices are the specification's logits. -/
theorem logitsV_eq (x : S8x4096x1024.Idx → EReal) (Wq WqT : S1024x1024.Idx → EReal) (bq : S1024.Idx → EReal)
    (Wk WkT : S1024x1024.Idx → EReal) (bk : S1024.Idx → EReal)
    (hq : ∀ j o : Fin 1024, WqT (ix2 j o) = Wq (ix2 o j)) (hk : ∀ j o : Fin 1024, WkT (ix2 j o) = Wk (ix2 o j))
    (b : Fin 8) (f g : Fin 1024) :
    logitsV x WqT bq WkT bk b f g = Cert.Spec.logits x Wq bq Wk bk b f g := by
  unfold logitsV Cert.Spec.logits
  exact Finset.sum_congr rfl fun s _ => by rw [projV_eq x Wq WqT bq hq, projV_eq x Wk WkT bk hk]

/-- The second region's result from the softmax weights of the logits and the transposed value projection is the
    specification. -/
theorem out_bridge (x : S8x4096x1024.Idx → EReal) (Wq WqT : S1024x1024.Idx → EReal) (bq : S1024.Idx → EReal)
    (Wk WkT : S1024x1024.Idx → EReal) (bk : S1024.Idx → EReal) (Wv WvT : S1024x1024.Idx → EReal) (bv : S1024.Idx → EReal)
    (A1 : S8x1024x1024.Idx → EReal)
    (hq : ∀ j o : Fin 1024, WqT (ix2 j o) = Wq (ix2 o j)) (hk : ∀ j o : Fin 1024, WkT (ix2 j o) = Wk (ix2 o j))
    (hv : ∀ g h : Fin 1024, WvT (ix2 g h) = Wv (ix2 h g))
    (hA1 : ∀ (b : Fin 8) (f g : Fin 1024), A1 (ix3 b f g) = Cert.Spec.softmaxRow (logitsV x WqT bq WkT bk b f) g)
    (b : Fin 8) (s : Fin 4096) (h : Fin 1024) :
    outAt x A1 WvT bv b s h = Cert.Spec.out x Wq bq Wk bk Wv bv b s h := by
  have hrow : ∀ f : Fin 1024, logitsV x WqT bq WkT bk b f = Cert.Spec.logits x Wq bq Wk bk b f :=
    fun f => funext fun g => logitsV_eq x Wq WqT bq Wk WkT bk hq hk b f g
  unfold outAt Cert.Spec.out
  refine congrArg (· + bv (ix1 h)) (Finset.sum_congr rfl fun g _ => ?_)
  rw [hv]
  refine congrArg (· * Wv (ix2 h g)) (Finset.sum_congr rfl fun f _ => ?_)
  rw [hA1, hrow]

end Cert.KernelIdeal.Fr

end
-- ==== Proof.PayAcc.lean ====
import proofs.«123227_j30734785970848_2_alg».proof.Proof.Gen.KernelIdeal.Skeleton
import proofs.«123227_j30734785970848_2_alg».proof.Proof.Spec
import Idealize.ShloMosaic.Lib.ValueIdx
import Idealize.ShloMosaic.Lib.ValueLayout
import Idealize.ShloMosaic.Lib.Pipeline.Value
import Idealize.ShloMosaic.PureOps.Ideal.Laws

/-! The first kernel's accumulator payloads read at one index. The accumulator starts as the zero matrix. At each
    tile of 512 sequence positions the kernel forms the tile's two affine projections — the input tile times a
    weight matrix contracted over the 1024 input features, plus a bias spread over the tile's rows — and adds to the
    accumulator their product contracted over the tile's 512 positions. A matrix product into a zero accumulator is
    the plain sum of products over the contraction index; the operand indices at output index `(r, c)` and
    contraction coordinate `k` are read off the product's dimension numbers axis by axis. -/

noncomputable section

namespace Cert.KernelIdeal.Pay

open Idealize.ShloMosaic Idealize.ShloMosaic.ValueIdx Cert.KernelIdeal Cert.KernelIdeal.Gen

/-- Projection product, left operand, axis 0 (kept): the output's row. -/
theorem projL0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- Projection product, left operand, axis 1 (contracted): the contraction coordinate. -/
theorem projL1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q

/-- Projection product, right operand, axis 0 (contracted): the contraction coordinate. -/
theorem projR0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q

/-- Projection product, right operand, axis 1 (kept): the output's column. -/
theorem projR1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- A tile's projection product into the zero accumulator at `(s, o)`: `Σ_j A[s, j] · B[j, o]`. -/
theorem proj_matmul_apply (prec : Option ContractPrecision) (A : FVec Ideal S512x1024 .bf16) (B : FVec Ideal S1024x1024 .bf16)
    (s : Fin 512) (o : Fin 1024) :
    matmul dot_S512x1024_S1024x1024_S512x1024_1_0_0_1_n_n prec A B (constant S512x1024 .f32 0x00000000#32) (ix2 s o)
      = ∑ j : Fin 1024, A (ix2 s j) * B (ix2 j o) := by
  refine (Ideal.matmul_constant_zero_apply dot_S512x1024_S1024x1024_S512x1024_1_0_0_1_n_n prec A B (ix2 s o)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 s o) ((contrEquiv1 dot_S512x1024_S1024x1024_S512x1024_1_0_0_1_n_n 1024 rfl rfl).symm k) = ix2 s k :=
    funext fun a => Fin.ext (by
      match a with
      | ⟨0, _⟩ => exact projL0 _ _
      | ⟨1, _⟩ => exact (projL1 _ _).trans hk)
  have er : dot_S512x1024_S1024x1024_S512x1024_1_0_0_1_n_n.rhsIdx (ix2 s o) ((contrEquiv1 dot_S512x1024_S1024x1024_S512x1024_1_0_0_1_n_n 1024 rfl rfl).symm k) = ix2 k o :=
    funext fun a => Fin.ext (by
      match a with
      | ⟨0, _⟩ => exact (projR0 _ _).trans hk
      | ⟨1, _⟩ => exact projR1 _ _)
  rw [el, er]

/-- Logits product, left operand, axis 0 (contracted): the contraction coordinate. -/
theorem logitL0 (i : S1024x1024.Idx) (q : dot_S512x1024_S512x1024_S1024x1024_0_0_1_1_n_n.contr.Idx) : (dot_S512x1024_S512x1024_S1024x1024_0_0_1_1_n_n.lhsIdx i q 0).val = (q ⟨0, by decide⟩).val :=
  dot_S512x1024_S512x1024_S1024x1024_0_0_1_1_n_n.lhsIdx_val_of_single rfl i q

/-- Logits product, left operand, axis 1 (kept): the output's row. -/
theorem logitL1 (i : S1024x1024.Idx) (q : dot_S512x1024_S512x1024_S1024x1024_0_0_1_1_n_n.contr.Idx) : (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide),
    dif_pos (show (1 : Fin S512x1024.rank) ∈ dot_S512x1024_S512x1024_S1024x1024_0_0_1_1_n_n.lhsNonContracting by decide)]
  rfl

/-- Logits product, right operand, axis 0 (contracted): the contraction coordinate. -/
theorem logitR0 (i : S1024x1024.Idx) (q : dot_S512x1024_S512x1024_S1024x1024_0_0_1_1_n_n.contr.Idx) : (dot_S512x1024_S512x1024_S1024x1024_0_0_1_1_n_n.rhsIdx i q 0).val = (q ⟨0, by decide⟩).val :=
  dot_S512x1024_S512x1024_S1024x1024_0_0_1_1_n_n.rhsIdx_val_of_single rfl i q

/-- Logits product, right operand, axis 1 (kept): the output's column. -/
theorem logitR1 (i : S1024x1024.Idx) (q : dot_S512x1024_S512x1024_S1024x1024_0_0_1_1_n_n.contr.Idx) : (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide),
    dif_pos (show (1 : Fin S512x1024.rank) ∈ dot_S512x1024_S512x1024_S1024x1024_0_0_1_1_n_n.rhsNonContracting by decide)]
  rfl

/-- The two projections of one tile contracted over its 512 positions, into the zero accumulator, at `(f, g)`:
    `Σ_s Q[s, f] · K[s, g]`. -/
theorem logits_matmul_apply (prec : Option ContractPrecision) (Q K : FVec Ideal S512x1024 .f32) (f g : Fin 1024) :
    matmul dot_S512x1024_S512x1024_S1024x1024_0_0_1_1_n_n prec Q K (constant S1024x1024 .f32 0x00000000#32) (ix2 f g)
      = ∑ s : Fin 512, Q (ix2 s f) * K (ix2 s g) := by
  refine (Ideal.matmul_constant_zero_apply dot_S512x1024_S512x1024_S1024x1024_0_0_1_1_n_n prec Q K (ix2 f g)).trans ?_
  rw [← Equiv.sum_comp (contrEquiv1 dot_S512x1024_S512x1024_S1024x1024_0_0_1_1_n_n 512 rfl rfl).symm]
  refine Finset.sum_congr rfl fun k _ => ?_
  have hk := contrEquiv1_symm_val dot_S512x1024_S512x1024_S1024x1024_0_0_1_1_n_n 512 rfl rfl k
  have el : dot_S512x1024_S512x1024_S1024x1024_0_0_1_1_n_n.lhsIdx (ix2 f g) ((contrEquiv1 dot_S512x1024_S512x1024_S1024x1024_0_0_1_1_n_n 512 rfl rfl).symm k) = ix2 k f :=
    funext fun a => Fin.ext (by
      match a with
      | ⟨0, _⟩ => exact (logitL0 _ _).trans hk
      | ⟨1, _⟩ => exact logitL1 _ _)
  have er : dot_S512x1024_S512x1024_S1024x1024_0_0_1_1_n_n.rhsIdx (ix2 f g) ((contrEquiv1 dot_S512x1024_S512x1024_S1024x1024_0_0_1_1_n_n 512 rfl rfl).symm k) = ix2 k g :=
    funext fun a => Fin.ext (by
      match a with
      | ⟨0, _⟩ => exact (logitR0 _ _).trans hk
      | ⟨1, _⟩ => exact logitR1 _ _)
  rw [el, er]

/-- One affine projection of one tile, as the kernel forms it, at position `s` and output feature `o`:
    `Σ_j x[0, s, j] · W[j, o] + bias[o]`. The leading unit axis of the tile, the narrowing of the tile to bf16 and
    the cast of the weights to their own shape change nothing at the extended reals; the bias, viewed as one row, is
    spread over the tile's rows. -/
theorem proj_tile_apply (x : Vec Ideal S1x512x1024 .f32) (W : Vec Ideal S1024x1024 .bf16) (bias : Vec Ideal S1024 .f32)
    (s : Fin 512) (o : Fin 1024) :
    addf (F := Ideal)
        (matmul (F := Ideal) (φ₂ := .bf16) dot_S512x1024_S1024x1024_S512x1024_1_0_0_1_n_n none
          (truncf (F := Ideal) .bf16 (shapeCast S512x1024 x shapeCasts_S1x512x1024_S512x1024) bitsLt_bf16_f32)
          (shapeCast S1024x1024 W shapeCasts_S1024x1024_S1024x1024)
          (constant (F := Ideal) S512x1024 .f32 0x00000000#32))
        (broadcastTo S512x1024 (shapeCast S1x1024 bias shapeCasts_S1024_S1x1024) broadcasts_S1x1024_S512x1024)
        (ix2 s o)
      = ∑ j : Fin 1024, x (ix3 (0 : Fin 1) s j) * W (ix2 j o) + bias (ix1 o) := by
  refine (addf_apply _ _ (ix2 s o)).trans ?_
  refine congrArg₂ (· + ·) ?_ ?_
  · refine (proj_matmul_apply none _ _ s o).trans ?_
    refine Finset.sum_congr rfl fun j _ => ?_
    refine congrArg₂ (· * ·) ?_ ?_
    · exact (truncf_apply (ψ := .bf16) _ bitsLt_bf16_f32 (ix2 s j)).trans (shapeCast_1ab_ab_apply x _ s j)
    · exact congrFun (shapeCast_self W _) (ix2 j o)
  · exact (broadcastTo_1b_ab_apply _ _ s o).trans (shapeCast_a_1a_apply bias _ 0 o)

/-- THE STARTING PAYLOAD: the zero matrix. -/
theorem pay1_apply (f g : Fin 1024) : k0_pay1 (F := Ideal) (ix2 f g) = 0 := by
  unfold k0_pay1
  exact (congrFun (shapeCast_self _ _) (ix2 f g)).trans
    ((broadcast_apply _ _).trans ((Ideal.ofBits_def _).trans Ideal.ofBits_zero_f32))

/-- THE ACCUMULATING PAYLOAD AT `(f, g)`: the accumulator there plus the tile's two projections contracted over the
    tile's 512 positions. -/
theorem pay2_apply (v3 : Vec Ideal S1x512x1024 .f32) (v6 v8 : Vec Ideal S1024x1024 .bf16) (v11 v16 : Vec Ideal S1024 .f32)
    (v21 : Vec Ideal S1024x1024 .f32) (f g : Fin 1024) :
    k0_pay2 v3 v6 v8 v11 v16 v21 (ix2 f g)
      = v21 (ix2 f g) + ∑ s : Fin 512,
          (∑ j : Fin 1024, v3 (ix3 (0 : Fin 1) s j) * v6 (ix2 j f) + v11 (ix1 f))
            * (∑ j : Fin 1024, v3 (ix3 (0 : Fin 1) s j) * v8 (ix2 j g) + v16 (ix1 g)) := by
  unfold k0_pay2
  refine (congrFun (shapeCast_self _ _) (ix2 f g)).trans ?_
  refine (addf_apply _ _ (ix2 f g)).trans ?_
  refine congrArg (v21 (ix2 f g) + ·) ?_
  refine (logits_matmul_apply (some .fp32) _ _ f g).trans ?_
  refine Finset.sum_congr rfl fun s _ => ?_
  exact congrArg₂ (· * ·) (proj_tile_apply v3 v6 v11 s f) (proj_tile_apply v3 v8 v16 s g)

end Cert.KernelIdeal.Pay

end
-- ==== Proof.PayOut.lean ====
import proofs.«123227_j30734785970848_2_alg».proof.Proof.Gen.KernelIdeal.Skeleton
import proofs.«123227_j30734785970848_2_alg».proof.Proof.Spec
import Idealize.ShloMosaic.Lib.ValueIdx
import Idealize.ShloMosaic.Lib.ValueLayout
import Idealize.ShloMosaic.Lib.Pipeline.Value
import Idealize.ShloMosaic.PureOps.Ideal.Laws

/-! The second kernel's payload read at one index. The input rows are multiplied by the softmax weights, contracted
    over the 1024 input features; that product, narrowed, is multiplied by the last weight matrix, contracted over
    its 1024 columns; the bias, viewed as one row, is spread over the rows and added. Each matrix product into a zero
    accumulator is the plain sum of products over the contraction index; the leading unit axes and the narrowings
    change nothing at the extended reals. -/

noncomputable section

namespace Cert.KernelIdeal.Pay

open Idealize.ShloMosaic Idealize.ShloMosaic.ValueIdx Cert.KernelIdeal Cert.KernelIdeal.Gen

/-- Square product, left operand, axis 0 (kept): the output's row. -/
theorem outL0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- Square product, left operand, axis 1 (contracted): the contraction coordinate. -/
theorem outL1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q

/-- Square product, right operand, axis 0 (contracted): the contraction coordinate. -/
theorem outR0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q

/-- Square product, right operand, axis 1 (kept): the output's column. -/
theorem outR1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- A 1024 × 1024 product into the zero accumulator at `(r, c)`: `Σ_k A[r, k] · B[k, c]`. -/
theorem out_matmul_apply (prec : Option ContractPrecision) (A B : FVec Ideal S1024x1024 .bf16) (r c : Fin 1024) :
    matmul dot_S1024x1024_S1024x1024_S1024x1024_1_0_0_1_n_n prec A B (constant S1024x1024 .f32 0x00000000#32) (ix2 r c)
      = ∑ k : Fin 1024, A (ix2 r k) * B (ix2 k c) := by
  refine (Ideal.matmul_constant_zero_apply dot_S1024x1024_S1024x1024_S1024x1024_1_0_0_1_n_n prec A B (ix2 r c)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r c) ((contrEquiv1 dot_S1024x1024_S1024x1024_S1024x1024_1_0_0_1_n_n 1024 rfl rfl).symm k) = ix2 r k :=
    funext fun a => Fin.ext (by
      match a with
      | ⟨0, _⟩ => exact outL0 _ _
      | ⟨1, _⟩ => exact (outL1 _ _).trans hk)
  have er : dot_S1024x1024_S1024x1024_S1024x1024_1_0_0_1_n_n.rhsIdx (ix2 r c) ((contrEquiv1 dot_S1024x1024_S1024x1024_S1024x1024_1_0_0_1_n_n 1024 rfl rfl).symm k) = ix2 k c :=
    funext fun a => Fin.ext (by
      match a with
      | ⟨0, _⟩ => exact (outR0 _ _).trans hk
      | ⟨1, _⟩ => exact outR1 _ _)
  rw [el, er]

/-- THE SECOND KERNEL'S PAYLOAD AT `(0, s, h)`: `Σ_g (Σ_f x[0, s, f] · w[0, f, g]) · Wv[g, h] + bv[h]`. -/
theorem pay_out_apply (v0 : Vec Ideal S1x1024x1024 .f32) (v3 : Vec Ideal S1x1024x1024 .bf16) (v7 : Vec Ideal S1024x1024 .bf16)
    (v10 : Vec Ideal S1024 .f32) (s h : Fin 1024) :
    k1_pay1 v0 v3 v7 v10 (ix3 (0 : Fin 1) s h)
      = ∑ g : Fin 1024, (∑ f : Fin 1024, v0 (ix3 (0 : Fin 1) s f) * v3 (ix3 (0 : Fin 1) f g)) * v7 (ix2 g h)
          + v10 (ix1 h) := by
  unfold k1_pay1
  refine (shapeCast_ab_1ab_apply _ _ (0 : Fin 1) s h).trans ?_
  refine (addf_apply _ _ (ix2 s h)).trans ?_
  refine congrArg₂ (· + ·) ?_ ?_
  · refine (out_matmul_apply none _ _ s h).trans ?_
    refine Finset.sum_congr rfl fun g _ => ?_
    refine congrArg₂ (· * ·) ?_ ?_
    · refine (truncf_apply (ψ := .bf16) _ bitsLt_bf16_f32 (ix2 s g)).trans ?_
      refine (out_matmul_apply none _ _ s g).trans ?_
      refine Finset.sum_congr rfl fun f _ => ?_
      refine congrArg₂ (· * ·) ?_ ?_
      · exact (truncf_apply (ψ := .bf16) _ bitsLt_bf16_f32 (ix2 s f)).trans (shapeCast_1ab_ab_apply v0 _ s f)
      · exact shapeCast_1ab_ab_apply v3 _ f g
    · exact congrFun (shapeCast_self v7 _) (ix2 g h)
  · exact (broadcastTo_1b_ab_apply _ _ s h).trans (shapeCast_a_1a_apply v10 _ 0 h)

end Cert.KernelIdeal.Pay

end
-- ==== Proof.Join.lean ====
/-
  The idealized kernel program's result, on the extended reals, is the specification's function of the launch
  arguments. The second region's result array at (b, s, h) is the input row contracted with batch b's weights, then
  with the transposed value projection, plus the bias; the weights are the row softmax of the accumulator after batch
  b's last sequence tile; that accumulator is the two affine projections of the input contracted over the whole
  sequence axis (the eight tiles' partial sums regrouped into one sum); and the three matrices the regions read are the
  launch matrices transposed.
-/
import proofs.«123227_j30734785970848_2_alg».proof.Proof.JoinEntry
import proofs.«123227_j30734785970848_2_alg».proof.Proof.AccSum
import proofs.«123227_j30734785970848_2_alg».proof.Proof.Region1Value
import proofs.«123227_j30734785970848_2_alg».proof.Proof.Bridge
import proofs.«123227_j30734785970848_2_alg».proof.Proof.PayAcc
import proofs.«123227_j30734785970848_2_alg».proof.Proof.PayOut

set_option maxRecDepth 16384

noncomputable section

namespace Cert.KernelIdeal.Fr

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-- The weights the second region finds, at (b, f, g): the row softmax of the logits of the launch arrays read through
    the transposed matrices. -/
theorem weights_entry (b : Fin 8) (f g : Fin 1024) :
    (V2 m ρ c main_v6 : S8x1024x1024.Idx → EReal) (ix3 b f g)
      = Cert.Spec.softmaxRow (logitsV (m ((c : Thread nD τ).loc main_arg0)) (Gen.V1 m c main_v1) (m ((c : Thread nD τ).loc main_arg2)) (Gen.V1 m c main_v3) (m ((c : Thread nD τ).loc main_arg4)) b f) g := by
  rw [V2_main_v6]
  have h := weights_apply (V1 m ρ) (fun f g => Pay.pay1_apply f g)
    (fun v3 v6 v8 v11 v16 v21 f g => Pay.pay2_apply v3 v6 v8 v11 v16 v21 f g) c b f g
  rw [show V1 m ρ c main_arg0 = m ((c : Thread nD τ).loc main_arg0) from Cert.KernelIdeal.HostPrefix.V1_main_arg0 m c,
    show V1 m ρ c main_arg2 = m ((c : Thread nD τ).loc main_arg2) from Cert.KernelIdeal.HostPrefix.V1_main_arg2 m c,
    show V1 m ρ c main_arg4 = m ((c : Thread nD τ).loc main_arg4) from Cert.KernelIdeal.HostPrefix.V1_main_arg4 m c] at h
  exact h

/-- THE KERNEL PROGRAM'S RESULT at (b, s, h) is the specification's. -/
theorem kernel_value (b : Fin 8) (s : Fin 4096) (h : Fin 1024) :
    (W3 m ρ c (Proc.devRef .tc main_v7) : S8x4096x1024.Idx → EReal) (ix3 b s h)
      = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b s h := by
  have hW : W3 m ρ c (Proc.devRef .tc main_v7) = (dat1 (V2 m ρ) c).arrAt 4 cfg1.N := W3_arr m ρ c 4
  rw [hW, out_apply (V2 m ρ) (fun v0 v3 v7 v10 s h => Pay.pay_out_apply v0 v3 v7 v10 s h) c b s h,
    V2_main_arg0, V2_main_arg6]
  exact out_bridge (m ((c : Thread nD τ).loc main_arg0)) (m ((c : Thread nD τ).loc main_arg1)) (Gen.V1 m c main_v1) (m ((c : Thread nD τ).loc main_arg2)) (m ((c : Thread nD τ).loc main_arg3)) (Gen.V1 m c main_v3) (m ((c : Thread nD τ).loc main_arg4))
    (m ((c : Thread nD τ).loc main_arg5)) (V2 m ρ c main_v5) (m ((c : Thread nD τ).loc main_arg6)) (V2 m ρ c main_v6)
    (Cert.KernelIdeal.HostPrefix.V1_main_v1 m c) (Cert.KernelIdeal.HostPrefix.V1_main_v3 m c) (V2_main_v5_apply m ρ c)
    (weights_entry m ρ c) b s h

/-- The same as one array. -/
theorem kernel_value_eq :
    (W3 m ρ c (Proc.devRef .tc main_v7) : S8x4096x1024.Idx → EReal)
      = fun i => Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2) := by
  funext i
  rw [eq_ix3 i]
  exact kernel_value m ρ c (i 0) (i 1) (i 2)

end Cert.KernelIdeal.Fr

end
-- ==== Proof.RefValue.lean ====
import proofs.«123227_j30734785970848_2_alg».proof.Proof.RefRun
import proofs.«123227_j30734785970848_2_alg».proof.Proof.Spec

/-! The reference program's result is the specification, index by index.

    The program's operations are read one group at a time at an index built from its coordinates: the two affine
    projections; their contraction over the sequence axis (the logits); the softmax chain on a row of logits — the
    row's maximum folded from −∞ and taken once more against −∞, each entry's distance below it, the exponential,
    the row's sum of exponentials started from zero, the quotient; the input contracted with those weights; the last
    projection with its bias. Each group's lemma is stated with the earlier groups' values left as the named stages, so
    that no step compares two full-size terms. -/

noncomputable section

namespace Cert.ReferenceIdeal.RefValue

open Cert.ReferenceIdeal Cert.ReferenceIdeal.Gen Cert.ReferenceIdeal.Read Idealize.ShloMosaic Idealize.ShloMosaic.ValueIdx

/-! ## The two affine projections -/

theorem lidx_v0 (b : Fin 8) (s : Fin 4096) (o k : Fin 1024) : lidx_main_v0 (ix3 b s o) k = ix3 b s k :=
  funext fun a => Fin.ext (by match a with | ⟨0, _⟩ => rfl | ⟨1, _⟩ => rfl | ⟨2, _⟩ => rfl)
theorem ridx_v0 (b : Fin 8) (s : Fin 4096) (o k : Fin 1024) : ridx_main_v0 (ix3 b s o) k = ix2 o k :=
  funext fun a => Fin.ext (by match a with | ⟨0, _⟩ => rfl | ⟨1, _⟩ => rfl)
theorem idx_v1v2 (b : Fin 8) (s : Fin 4096) (o : Fin 1024) : idx_main_v1 (idx_main_v2 (ix3 b s o)) = ix1 o :=
  funext fun a => Fin.ext (by match a with | ⟨0, _⟩ => rfl)
theorem lidx_v4 (b : Fin 8) (s : Fin 4096) (o k : Fin 1024) : lidx_main_v4 (ix3 b s o) k = ix3 b s k :=
  funext fun a => Fin.ext (by match a with | ⟨0, _⟩ => rfl | ⟨1, _⟩ => rfl | ⟨2, _⟩ => rfl)
theorem ridx_v4 (b : Fin 8) (s : Fin 4096) (o k : Fin 1024) : ridx_main_v4 (ix3 b s o) k = ix2 o k :=
  funext fun a => Fin.ext (by match a with | ⟨0, _⟩ => rfl | ⟨1, _⟩ => rfl)
theorem idx_v5v6 (b : Fin 8) (s : Fin 4096) (o : Fin 1024) : idx_main_v5 (idx_main_v6 (ix3 b s o)) = ix1 o :=
  funext fun a => Fin.ext (by match a with | ⟨0, _⟩ => rfl)

/-- The first projection read at `(b, s, o)`: the input row contracted with row `o` of the weights, plus the bias. -/
theorem proj_q (x0 : (⟨S8x4096x1024, .f32⟩ : BufTy).Contents (Elt Ideal)) (x1 : (⟨S1024x1024, .f32⟩ : BufTy).Contents (Elt Ideal)) (x2 : (⟨S1024, .f32⟩ : BufTy).Contents (Elt Ideal)) (b : Fin 8) (s : Fin 4096) (o : Fin 1024) :
    val_main_v3 (F := Ideal) x0 x1 x2 (ix3 b s o) = Cert.Spec.proj x0 x1 x2 b s o := by
  rw [val_main_v3_apply, val_main_v0_apply, val_main_v2_apply, val_main_v1_apply]
  simp only [lidx_v0, ridx_v0, idx_v1v2, Ideal.addf_def]
  rfl

/-- The second projection likewise. -/
theorem proj_k (x0 : (⟨S8x4096x1024, .f32⟩ : BufTy).Contents (Elt Ideal)) (x3 : (⟨S1024x1024, .f32⟩ : BufTy).Contents (Elt Ideal)) (x4 : (⟨S1024, .f32⟩ : BufTy).Contents (Elt Ideal)) (b : Fin 8) (s : Fin 4096) (o : Fin 1024) :
    val_main_v7 (F := Ideal) x0 x3 x4 (ix3 b s o) = Cert.Spec.proj x0 x3 x4 b s o := by
  rw [val_main_v7_apply, val_main_v4_apply, val_main_v6_apply, val_main_v5_apply]
  simp only [lidx_v4, ridx_v4, idx_v5v6, Ideal.addf_def]
  rfl

/-! ## The logits -/

theorem lidx_v8 (b : Fin 8) (f g : Fin 1024) (k : Fin 4096) : lidx_main_v8 (ix3 b f g) k = ix3 b k f :=
  funext fun a => Fin.ext (by match a with | ⟨0, _⟩ => rfl | ⟨1, _⟩ => rfl | ⟨2, _⟩ => rfl)
theorem ridx_v8 (b : Fin 8) (f g : Fin 1024) (k : Fin 4096) : ridx_main_v8 (ix3 b f g) k = ix3 b k g :=
  funext fun a => Fin.ext (by match a with | ⟨0, _⟩ => rfl | ⟨1, _⟩ => rfl | ⟨2, _⟩ => rfl)

/-- The logits read at `(b, f, g)`: the two projections contracted over the sequence axis. -/
theorem logits_apply (x0 : (⟨S8x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 8) (f g : Fin 1024) :
    val_main_v8 (F := Ideal) x0 x1 x2 x3 x4 (ix3 b f g) = Cert.Spec.logits x0 x1 x2 x3 x4 b f g := by
  rw [val_main_v8_apply]
  simp only [lidx_v8, ridx_v8, proj_q, proj_k]
  rfl

/-! ## The row maximum -/

/-- The logits' last axis is the one the two reductions drop. -/
theorem reduces_d2 : S8x1024x1024.Reduces [2] S8x1024 := by decide

/-- The reduced index `(b, f)` with coordinate `k` put back on the dropped axis is `(b, f, k)`. -/
theorem lift_d2 (b : Fin 8) (f : Fin 1024) (k : Fin (S8x1024x1024.size 2)) :
    reduces_d2.lift (ix2 b f) k = ix3 b f (⟨k.val, k.isLt⟩ : Fin 1024) := by
  funext c; apply Fin.ext
  fin_cases c <;> rfl

/-- The maximum-reduce over the last axis, from the word of −∞, read at `(b, f)`: `max` folded over the row. -/
theorem reduceMax_apply (y : (⟨S8x1024x1024, .f32⟩ : BufTy).Contents (Elt Ideal)) (b : Fin 8) (f : Fin 1024) :
    Host.reduce (FloatOps.maximumf (F := Ideal) (φ := .f32)) y (val_main_cst (F := Ideal)) reducesTo_S8x1024x1024_S8x1024_d2 h_S_ (ix2 b f)
      = (Finset.univ : Finset (Fin 1024)).fold max Cert.Spec.negInf (fun g => y (ix3 b f g)) := by
  rw [Host.reduce_eq_fold_single (FloatOps.maximumf (F := Ideal) (φ := .f32)) y _ reducesTo_S8x1024x1024_S8x1024_d2 reduces_d2 h_S_]
  have hf : (y ∘ reduces_d2.lift (ix2 b f)) = fun k : Fin 1024 => y (ix3 b f k) :=
    funext fun k => congrArg y (lift_d2 b f k)
  exact congrArg (fun r => Finset.fold max Cert.Spec.negInf r (Finset.univ : Finset (Fin 1024))) hf

/-- The row maximum as the program takes it (the fold, then once more against −∞), read at `(b, f)`. -/
theorem rowMax_apply (x0 : (⟨S8x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 8) (f : Fin 1024) :
    val_main_v11 (F := Ideal) x0 x1 x2 x3 x4 (ix2 b f)
      = Cert.Spec.rowMax (fun g => val_main_v8 (F := Ideal) x0 x1 x2 x3 x4 (ix3 b f g)) := by
  rw [val_main_v11_apply, val_main_v10_apply, val_main_cst_0_apply]
  unfold val_main_v9
  rw [reduceMax_apply]
  rfl

/-! ## The softmax of a row -/

theorem idx_v12v13 (b : Fin 8) (f g : Fin 1024) : idx_main_v12 (idx_main_v13 (ix3 b f g)) = ix2 b f :=
  funext fun a => Fin.ext (by match a with | ⟨0, _⟩ => rfl | ⟨1, _⟩ => rfl)
theorem idx_v17v18 (b : Fin 8) (f g : Fin 1024) : idx_main_v17 (idx_main_v18 (ix3 b f g)) = ix2 b f :=
  funext fun a => Fin.ext (by match a with | ⟨0, _⟩ => rfl | ⟨1, _⟩ => rfl)
theorem idx_v16 (b : Fin 8) (f k : Fin 1024) : idx_main_v16 (ix2 b f) k = ix3 b f k :=
  funext fun a => Fin.ext (by match a with | ⟨0, _⟩ => rfl | ⟨1, _⟩ => rfl | ⟨2, _⟩ => rfl)

/-- The exponential of an entry's distance below its row's maximum, read at `(b, f, g)`. -/
theorem exp_apply (x0 : (⟨S8x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 8) (f g : Fin 1024) :
    val_main_v15 (F := Ideal) x0 x1 x2 x3 x4 (ix3 b f g)
      = Ideal.exp (val_main_v8 (F := Ideal) x0 x1 x2 x3 x4 (ix3 b f g) - Cert.Spec.rowMax (fun g' => val_main_v8 (F := Ideal) x0 x1 x2 x3 x4 (ix3 b f g'))) := by
  rw [val_main_v15_apply, val_main_v14_apply, val_main_v13_apply, val_main_v12_apply, idx_v12v13, rowMax_apply]
  rfl

/-- The softmax weights read at `(b, f, g)`: the softmax of row `(b, f)` of the logits, at entry `g`. -/
theorem softmax_apply (x0 : (⟨S8x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 8) (f g : Fin 1024) :
    val_main_v19 (F := Ideal) x0 x1 x2 x3 x4 (ix3 b f g)
      = Cert.Spec.softmaxRow (Cert.Spec.logits x0 x1 x2 x3 x4 b f) g := by
  have hL : (fun g' => val_main_v8 (F := Ideal) x0 x1 x2 x3 x4 (ix3 b f g')) = Cert.Spec.logits x0 x1 x2 x3 x4 b f :=
    funext fun g' => logits_apply x0 x1 x2 x3 x4 b f g'
  rw [val_main_v19_apply, val_main_v18_apply, val_main_v17_apply, idx_v17v18, val_main_v16_apply, val_main_cst_1_apply]
  simp only [idx_v16, exp_apply, hL, logits_apply, Ideal.hostDivf_def, Ideal.ofBits_def, Ideal.ofBits_zero_f32, zero_add]
  rfl

/-! ## The two last contractions and the bias -/

theorem lidx_v20 (b : Fin 8) (s : Fin 4096) (g k : Fin 1024) : lidx_main_v20 (ix3 b s g) k = ix3 b s k :=
  funext fun a => Fin.ext (by match a with | ⟨0, _⟩ => rfl | ⟨1, _⟩ => rfl | ⟨2, _⟩ => rfl)
theorem ridx_v20 (b : Fin 8) (s : Fin 4096) (g k : Fin 1024) : ridx_main_v20 (ix3 b s g) k = ix3 b k g :=
  funext fun a => Fin.ext (by match a with | ⟨0, _⟩ => rfl | ⟨1, _⟩ => rfl | ⟨2, _⟩ => rfl)
theorem lidx_v21 (b : Fin 8) (s : Fin 4096) (h k : Fin 1024) : lidx_main_v21 (ix3 b s h) k = ix3 b s k :=
  funext fun a => Fin.ext (by match a with | ⟨0, _⟩ => rfl | ⟨1, _⟩ => rfl | ⟨2, _⟩ => rfl)
theorem ridx_v21 (b : Fin 8) (s : Fin 4096) (h k : Fin 1024) : ridx_main_v21 (ix3 b s h) k = ix2 h k :=
  funext fun a => Fin.ext (by match a with | ⟨0, _⟩ => rfl | ⟨1, _⟩ => rfl)
theorem idx_v22v23 (b : Fin 8) (s : Fin 4096) (h : Fin 1024) : idx_main_v22 (idx_main_v23 (ix3 b s h)) = ix1 h :=
  funext fun a => Fin.ext (by match a with | ⟨0, _⟩ => rfl)

/-- The input contracted with the softmax weights, read at `(b, s, g)`. -/
theorem attn_apply (x0 : (⟨S8x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 8) (s : Fin 4096) (g : Fin 1024) :
    val_main_v20 (F := Ideal) x0 x1 x2 x3 x4 (ix3 b s g)
      = ∑ f : Fin 1024, x0 (ix3 b s f) * Cert.Spec.softmaxRow (Cert.Spec.logits x0 x1 x2 x3 x4 b f) g := by
  rw [val_main_v20_apply]
  simp only [lidx_v20, ridx_v20, softmax_apply]

/-- The reference's result read at `(b, s, h)` is the specification there. -/
theorem ref_apply (x0 : (⟨S8x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 8) (s : Fin 4096) (h : Fin 1024) :
    val_main_v24 (F := Ideal) x0 x1 x2 x3 x4 x5 x6 (ix3 b s h) = Cert.Spec.out x0 x1 x2 x3 x4 x5 x6 b s h := by
  rw [val_main_v24_apply, val_main_v21_apply, val_main_v23_apply, val_main_v22_apply]
  simp only [lidx_v21, ridx_v21, idx_v22v23, attn_apply, Ideal.addf_def]
  rfl

/-- The reference's whole result array is the specification, index by index. -/
theorem ref_eq (x0 : (⟨S8x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) :
    val_main_v24 (F := Ideal) x0 x1 x2 x3 x4 x5 x6 = fun i => Cert.Spec.out x0 x1 x2 x3 x4 x5 x6 (i 0) (i 1) (i 2) := by
  funext i
  rw [eq_ix3 i]
  exact ref_apply x0 x1 x2 x3 x4 x5 x6 (i 0) (i 1) (i 2)

end Cert.ReferenceIdeal.RefValue

end
-- ==== Proof.lean ====
/-
  The certificate's claim: the two kernel programs' frames and the reference's (proof/Proof/Frames.lean), nothing to
  preserve, and the equality of results on the extended reals. For the last, the idealized kernel program runs to its
  result buffer holding the specification's function of the launch arguments — two affine projections of the input,
  their product contracted over the sequence axis, the row softmax, the input contracted with the weights, a last affine
  projection — and the reference runs to its result buffer holding the same function of arguments that agree; the only
  law between the two sides is the regrouping of the sum over the sequence axis into the kernel's eight tiles, which
  holds on the extended reals without any finiteness.
-/
import proofs.«123227_j30734785970848_2_alg».proof.Defs
import proofs.«123227_j30734785970848_2_alg».proof.Proof.Frames
import proofs.«123227_j30734785970848_2_alg».proof.Proof.Join
import proofs.«123227_j30734785970848_2_alg».proof.Proof.RefValue

noncomputable section

namespace Cert.Proof

open Idealize.ShloMosaic Idealize.SL.Sem

/-- Both programs, run from memories that agree on the arguments, end with the specification's function of them. -/
theorem algebraic : Cert.algebraic_KernelIdeal_ReferenceIdeal := by
  intro m ρ m' ρ' _ hagree
  refine ⟨fun c => Cert.KernelIdeal.Fr.W3 (F := Ideal) m ρ c (Proc.devRef .tc Cert.KernelIdeal.main_v7),
    Cert.KernelIdeal.Fr.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2]
  exact (Cert.KernelIdeal.Fr.kernel_value_eq m ρ c).symm

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves, algebraic⟩

end Cert.Proof

end
